-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1024 : Shape := ⟨2, ![8192, 1024]⟩
abbrev S256 : Shape := ⟨1, ![256]⟩
abbrev S256x256 : Shape := ⟨2, ![256, 256]⟩
abbrev S1024x256 : Shape := ⟨2, ![1024, 256]⟩
abbrev S1024 : Shape := ⟨1, ![1024]⟩
abbrev S3072x512 : Shape := ⟨2, ![3072, 512]⟩
abbrev S3072 : Shape := ⟨1, ![3072]⟩
abbrev S3072x1024 : Shape := ⟨2, ![3072, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S3072x512 : S_.BroadcastsInDim S3072x512 (![] : Fin 0 → Fin S3072x512.rank)
  reducesTo_S3072x512_S_d0_1 : S3072x512.ReducesTo [0, 1] S_
  bcast_S_S3072 : S_.BroadcastsInDim S3072 (![] : Fin 0 → Fin S3072.rank)
  reducesTo_S3072_S_d0 : S3072.ReducesTo [0] S_
  bcast_S_S3072x1024 : S_.BroadcastsInDim S3072x1024 (![] : Fin 0 → Fin S3072x1024.rank)
  reducesTo_S3072x1024_S_d0_1 : S3072x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S3072 .f32) (main_arg12 : FVec F S3072x1024 .f32) (main_arg13 : FVec F S3072 .f32) (main_v48 : IVec S_ 1) (main_v49 : FVec F S3072x512 .f32) (main_v50 : FVec F S3072x512 .f32) : IVec S_ 1 :=
  let main_v51 : IVec S3072x512 1 := cmpf .olt main_v49 main_v50
  let main_c_19 : IVec S_ 1 := constantI S_ 1 1#1
  let main_v52 : IVec S_ 1 := (fun x v => Host.reduce IntOp.andi x v reducesTo_S3072x512_S_d0_1 h_S_) main_v51 main_c_19
  let main_v53 : IVec S_ 1 := andi main_v48 main_v52
  let main_v54 : FVec F S3072 .f32 := Host.absf main_arg11
  let main_cst_20 : FVec F S_ .f32 := constant S_ .f32 0x7F800000#32
  let main_v55 : FVec F S3072 .f32 := broadcastInDim S3072 ![] bcast_S_S3072 main_cst_20
  let main_v56 : IVec S3072 1 := cmpf .olt main_v54 main_v55
  let main_c_21 : IVec S_ 1 := constantI S_ 1 1#1
  let main_v57 : IVec S_ 1 := (fun x v => Host.reduce IntOp.andi x v reducesTo_S3072_S_d0 h_S_) main_v56 main_c_21
  let main_v58 : IVec S_ 1 := andi main_v53 main_v57
  let main_v59 : FVec F S3072x1024 .f32 := Host.absf main_arg12
  let main_cst_22 : FVec F S_ .f32 := constant S_ .f32 0x7F800000#32
  let main_v60 : FVec F S3072x1024 .f32 := broadcastInDim S3072x1024 ![] bcast_S_S3072x1024 main_cst_22
  let main_v61 : IVec S3072x1024 1 := cmpf .olt main_v59 main_v60
  let main_c_23 : IVec S_ 1 := constantI S_ 1 1#1
  let main_v62 : IVec S_ 1 := (fun x v => Host.reduce IntOp.andi x v reducesTo_S3072x1024_S_d0_1 h_S_) main_v61 main_c_23
  let main_v63 : IVec S_ 1 := andi main_v58 main_v62
  let main_v64 : FVec F S3072 .f32 := Host.absf main_arg13
  let main_cst_24 : FVec F S_ .f32 := constant S_ .f32 0x7F800000#32
  let main_v65 : FVec F S3072 .f32 := broadcastInDim S3072 ![] bcast_S_S3072 main_cst_24
  let main_v66 : IVec S3072 1 := cmpf .olt main_v64 main_v65
  let main_c_25 : IVec S_ 1 := constantI S_ 1 1#1
  let main_v67 : IVec S_ 1 := (fun x v => Host.reduce IntOp.andi x v reducesTo_S3072_S_d0 h_S_) main_v66 main_c_25
  fn_part4 (F := F) main_v63 main_v67

def fn_part2 {F : FTy → Type} [FloatOps F] (main_arg7 : FVec F S256 .f32) (main_arg8 : FVec F S1024x256 .f32) (main_arg9 : FVec F S1024 .f32) (main_arg10 : FVec F S3072x512 .f32) (main_arg11 : FVec F S3072 .f32) (main_arg12 : FVec F S3072x1024 .f32) (main_arg13 : FVec F S3072 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1024x256 .f32 := Host.absf main_arg8
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S3072x512 .f32 := Host.absf main_arg10
  let main_cst_18 : FVec F S_ .f32 := constant S_ .f32 0x7F800000#32
  let main_v50 : FVec F S3072x512 .f32 := broadcastInDim S3072x512 ![] bcast_S_S3072x512 main_cst_18
  fn_part3 (F := F) main_arg11 main_arg12 main_arg13 main_v48 main_v49 main_v50

def fn_part1 {F : FTy → Type} [FloatOps F] (main_arg4 : FVec F S8192x256 .f32) (main_arg5 : FVec F S256 .f32) (main_arg6 : FVec F S256x256 .f32) (main_arg7 : FVec F S256 .f32) (main_arg8 : FVec F S1024x256 .f32) (main_arg9 : FVec F S1024 .f32) (main_arg10 : FVec F S3072x512 .f32) (main_arg11 : FVec F S3072 .f32) (main_arg12 : FVec F S3072x1024 .f32) (main_arg13 : FVec F S3072 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x256 .f32) (main_arg1 : FVec F S8192x256 .f32) (main_arg2 : FVec F S8192x256 .f32) (main_arg3 : FVec F S8192x1024 .f32) (main_arg4 : FVec F S8192x256 .f32) (main_arg5 : FVec F S256 .f32) (main_arg6 : FVec F S256x256 .f32) (main_arg7 : FVec F S256 .f32) (main_arg8 : FVec F S1024x256 .f32) (main_arg9 : FVec F S1024 .f32) (main_arg10 : FVec F S3072x512 .f32) (main_arg11 : FVec F S3072 .f32) (main_arg12 : FVec F S3072x1024 .f32) (main_arg13 : FVec F S3072 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x256 : Shape := ⟨2, ![8192, 256]⟩
abbrev S8192x1024 : Shape := ⟨2, ![8192, 1024]⟩
abbrev S256 : Shape := ⟨1, ![256]⟩
abbrev S256x256 : Shape := ⟨2, ![256, 256]⟩
abbrev S1024x256 : Shape := ⟨2, ![1024, 256]⟩
abbrev S1024 : Shape := ⟨1, ![1024]⟩
abbrev S3072x512 : Shape := ⟨2, ![3072, 512]⟩
abbrev S3072 : Shape := ⟨1, ![3072]⟩
abbrev S3072x1024 : Shape := ⟨2, ![3072, 1024]⟩
abbrev S1x256 : Shape := ⟨2, ![1, 256]⟩
abbrev S1x1024 : Shape := ⟨2, ![1, 1024]⟩
abbrev S1x3072 : Shape := ⟨2, ![1, 3072]⟩
abbrev S512x256 : Shape := ⟨2, ![512, 256]⟩
abbrev S512x1024 : Shape := ⟨2, ![512, 1024]⟩
abbrev S3072x256 : Shape := ⟨2, ![3072, 256]⟩
abbrev S1024x1024 : Shape := ⟨2, ![1024, 1024]⟩

abbrev nBuf : Space → Nat
  | .hbm => 25
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1024x256, .f32⟩
  | .hbm, ⟨9, _⟩ => ⟨S1024, .f32⟩
  | .hbm, ⟨10, _⟩ => ⟨S3072x512, .f32⟩
  | .hbm, ⟨11, _⟩ => ⟨S3072, .f32⟩
  | .hbm, ⟨12, _⟩ => ⟨S3072x1024, .f32⟩
  | .hbm, ⟨13, _⟩ => ⟨S3072, .f32⟩
  | .hbm, ⟨14, _⟩ => ⟨S256x256, .bf16⟩
  | .hbm, ⟨15, _⟩ => ⟨S1024x256, .bf16⟩
  | .hbm, ⟨16, _⟩ => ⟨S3072x512, .bf16⟩
  | .hbm, ⟨17, _⟩ => ⟨S3072x1024, .bf16⟩
  | .hbm, ⟨18, _⟩ => ⟨S1x256, .f32⟩
  | .hbm, ⟨19, _⟩ => ⟨S1x1024, .f32⟩
  | .hbm, ⟨20, _⟩ => ⟨S1x3072, .f32⟩
  | .hbm, ⟨21, _⟩ => ⟨S1x3072, .f32⟩
  | .hbm, ⟨22, _⟩ => ⟨S1x256, .f32⟩
  | .hbm, ⟨23, _⟩ => ⟨S8192x1024, .f32⟩
  | .hbm, ⟨24, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S1024x256, .bf16⟩
  | .local _ .vmem, ⟨14, _⟩ => ⟨S1x1024, .f32⟩
  | .local _ .vmem, ⟨15, _⟩ => ⟨S3072x512, .bf16⟩
  | .local _ .vmem, ⟨16, _⟩ => ⟨S1x3072, .f32⟩
  | .local _ .vmem, ⟨17, _⟩ => ⟨S3072x1024, .bf16⟩
  | .local _ .vmem, ⟨18, _⟩ => ⟨S1x3072, .f32⟩
  | .local _ .vmem, ⟨19, _⟩ => ⟨S512x1024, .f32⟩
  | .local _ .vmem, ⟨20, _⟩ => ⟨S512x1024, .f32⟩
  | .local _ .vmem, ⟨21, _⟩ => ⟨S512x256, .f32⟩
  | .local _ .vmem, ⟨22, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3072x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3072x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  shapeCasts_S256_S1x256 : S256.ShapeCasts S1x256
  shapeCasts_S1024_S1x1024 : S1024.ShapeCasts S1x1024
  shapeCasts_S3072_S1x3072 : S3072.ShapeCasts S1x3072
  inb_S512x256_S512x256_0_0 : ∀ a, (![0, 0] : Fin 2 → Nat) a + S512x256.size a ≤ S512x256.size a
  h_S512x256 : 0 < S512x256.numel
  inb_S512x1024_S512x1024_0_0 : ∀ a, (![0, 0] : Fin 2 → Nat) a + S512x1024.size a ≤ S512x1024.size a
  h_S512x1024 : 0 < S512x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S512x256 : S1x256.Broadcasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S3072x512_o0_0_S3072x256 : S3072x512.Slices ![0, 0] S3072x256
  slices_S3072x512_o0_256_S3072x256 : S3072x512.Slices ![0, 256] S3072x256
  slices_S3072x256_o0_0_S1024x256 : S3072x256.Slices ![0, 0] S1024x256
  slices_S3072x1024_o0_0_S1024x1024 : S3072x1024.Slices ![0, 0] S1024x1024
  slices_S1x3072_o0_0_S1x1024 : S1x3072.Slices ![0, 0] S1x1024
  slices_S3072x256_o1024_0_S1024x256 : S3072x256.Slices ![1024, 0] S1024x256
  slices_S3072x1024_o1024_0_S1024x1024 : S3072x1024.Slices ![1024, 0] S1024x1024
  slices_S1x3072_o0_1024_S1x1024 : S1x3072.Slices ![0, 1024] S1x1024
  slices_S3072x256_o2048_0_S1024x256 : S3072x256.Slices ![2048, 0] S1024x256
  slices_S3072x1024_o2048_0_S1024x1024 : S3072x1024.Slices ![2048, 0] S1024x1024
  slices_S1x3072_o0_2048_S1x1024 : S1x3072.Slices ![0, 2048] S1x1024
  dot_S512x256_S256x256_S512x256_1_1_0_0_n_n_wf : DotDims.WF S512x256 S256x256 S512x256 [1] [1] [0] [0] [] []
  dot_S512x256_S1024x256_S512x1024_1_1_0_0_n_n_wf : DotDims.WF S512x256 S1024x256 S512x1024 [1] [1] [0] [0] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .f32 = 32 ∨ (Rect.block (s := S8192x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x256.size a
  hwx0_8 : ∀ i : grid0.Coords, EltTy.bits .bf16 = 32 ∨ (Rect.block (s := S1024x256) S1024x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3072x512.size a ≤ S3072x512.size a
  hwx0_10 : ∀ i : grid0.Coords, EltTy.bits .bf16 = 32 ∨ (Rect.block (s := S3072x512) S3072x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x3072.size a ≤ S1x3072.size a
  hwx0_11 : ∀ i : grid0.Coords, EltTy.bits .f32 = 32 ∨ (Rect.block (s := S1x3072) S1x3072.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3072x1024.size a ≤ S3072x1024.size a
  hwx0_12 : ∀ i : grid0.Coords, EltTy.bits .bf16 = 32 ∨ (Rect.block (s := S3072x1024) S3072x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x3072.size a ≤ S1x3072.size a
  hwx0_13 : ∀ i : grid0.Coords, EltTy.bits .f32 = 32 ∨ (Rect.block (s := S1x3072) S1x3072.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S8192x1024.size a
  hwx0_14 : ∀ i : grid0.Coords, EltTy.bits .f32 = 32 ∨ (Rect.block (s := S8192x1024) S512x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S8192x256.size a
  hwx0_15 : ∀ i : grid0.Coords, EltTy.bits .f32 = 32 ∨ (Rect.block (s := S8192x256) S512x256.size (cc0_transform_15 i) (hinb0_15 i)).WholeWords (EltTy.packing .f32)

variable [Facts₀]

def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1024x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S3072x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x3072.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S3072x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x3072.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9_0) S512x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v9_1) S512x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x1024 : Shape := ⟨2, ![8192, 1024]⟩
abbrev S256 : Shape := ⟨1, ![256]⟩
abbrev S256x256 : Shape := ⟨2, ![256, 256]⟩
abbrev S1024x256 : Shape := ⟨2, ![1024, 256]⟩
abbrev S1024 : Shape := ⟨1, ![1024]⟩
abbrev S3072x512 : Shape := ⟨2, ![3072, 512]⟩
abbrev S3072 : Shape := ⟨1, ![3072]⟩
abbrev S3072x1024 : Shape := ⟨2, ![3072, 1024]⟩
abbrev S1x256 : Shape := ⟨2, ![1, 256]⟩
abbrev S_ : Shape := ⟨0, ![]⟩
abbrev S256x1024 : Shape := ⟨2, ![256, 1024]⟩
abbrev S1x1024 : Shape := ⟨2, ![1, 1024]⟩
abbrev S8192x512 : Shape := ⟨2, ![8192, 512]⟩
abbrev S512x3072 : Shape := ⟨2, ![512, 3072]⟩
abbrev S8192x3072 : Shape := ⟨2, ![8192, 3072]⟩
abbrev S1x3072 : Shape := ⟨2, ![1, 3072]⟩
abbrev S1024x3072 : Shape := ⟨2, ![1024, 3072]⟩

abbrev nBuf : Space → Nat
  | .hbm => 93
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1024x256, .f32⟩
  | .hbm, ⟨9, _⟩ => ⟨S1024, .f32⟩
  | .hbm, ⟨10, _⟩ => ⟨S3072x512, .f32⟩
  | .hbm, ⟨11, _⟩ => ⟨S3072, .f32⟩
  | .hbm, ⟨12, _⟩ => ⟨S3072x1024, .f32⟩
  | .hbm, ⟨13, _⟩ => ⟨S3072, .f32⟩
  | .hbm, ⟨14, _⟩ => ⟨S256x256, .f32⟩
  | .hbm, ⟨15, _⟩ => ⟨S8192x256, .f32⟩
  | .hbm, ⟨16, _⟩ => ⟨S1x256, .f32⟩
  | .hbm, ⟨17, _⟩ => ⟨S8192x256, .f32⟩
  | .hbm, ⟨18, _⟩ => ⟨S8192x256, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S256x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x256, .f32⟩
  | .hbm, ⟨35, _⟩ => ⟨S_, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S1x256, .f32⟩
  | .hbm, ⟨43, _⟩ => ⟨S8192x256, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S8192x1024, .f32⟩
  | .hbm, ⟨49, _⟩ => ⟨S8192x512, .f32⟩
  | .hbm, ⟨50, _⟩ => ⟨S512x3072, .f32⟩
  | .hbm, ⟨51, _⟩ => ⟨S8192x3072, .f32⟩
  | .hbm, ⟨52, _⟩ => ⟨S1x3072, .f32⟩
  | .hbm, ⟨53, _⟩ => ⟨S8192x3072, .f32⟩
  | .hbm, ⟨54, _⟩ => ⟨S8192x3072, .f32⟩
  | .hbm, ⟨55, _⟩ => ⟨S1024x3072, .f32⟩
  | .hbm, ⟨56, _⟩ => ⟨S8192x3072, .f32⟩
  | .hbm, ⟨57, _⟩ => ⟨S1x3072, .f32⟩
  | .hbm, ⟨58, _⟩ => ⟨S8192x3072, .f32⟩
  | .hbm, ⟨59, _⟩ => ⟨S8192x3072, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_cst : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_1 : Ref sig .tc := ⟨.hbm, 69, rfl⟩
abbrev main_v49 : Ref sig .tc := ⟨.hbm, 70, rfl⟩
abbrev main_v50 : Ref sig .tc := ⟨.hbm, 71, rfl⟩
abbrev main_cst_2 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_cst_4 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  concatenates_S8192x256_S8192x256_S8192x512_d1 : Shape.Concatenates [S8192x256, S8192x256] S8192x512 1
  transposes_S3072x512_S512x3072_1_0 : S3072x512.Transposes [1, 0] S512x3072
  bcast_S3072_S1x3072_1 : S3072.BroadcastsInDim S1x3072 (![1] : Fin 1 → Fin S1x3072.rank)
  bcast_S1x3072_S8192x3072_0_1 : S1x3072.BroadcastsInDim S8192x3072 (![0, 1] : Fin 2 → Fin S8192x3072.rank)
  transposes_S3072x1024_S1024x3072_1_0 : S3072x1024.Transposes [1, 0] S1024x3072
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  dot_S8192x256_S256x256_S8192x256_1_0_0_1_n_n_wf : DotDims.WF S8192x256 S256x256 S8192x256 [1] [0] [0] [1] [] []
  dot_S8192x256_S256x1024_S8192x1024_1_0_0_1_n_n_wf : DotDims.WF S8192x256 S256x1024 S8192x1024 [1] [0] [0] [1] [] []
  dot_S8192x512_S512x3072_S8192x3072_1_0_0_1_n_n_wf : DotDims.WF S8192x512 S512x3072 S8192x3072 [1] [0] [0] [1] [] []
  dot_S8192x1024_S1024x3072_S8192x3072_1_0_0_1_n_n_wf : DotDims.WF S8192x1024 S1024x3072 S8192x3072 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x512_S512x3072_S8192x3072_1_0_0_1_n_n : DotDims S8192x512 S512x3072 S8192x3072 where
  lhsContracting := [1]
  rhsContracting := [0]
  lhsNonContracting := [0]
  rhsNonContracting := [1]
  lhsBatch := []
  rhsBatch := []
  wf := dot_S8192x512_S512x3072_S8192x3072_1_0_0_1_n_n_wf
def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf

class Facts : Prop extends Facts₀ where

variable [Facts]
-- ==== Proof.Cell.lean ====
/-
  The decay-gated recurrent cell, as mathematics on the extended reals.

  Inputs: observations `x`, a mask `mk`, elapsed times `d`, the previous observation `xp` (all 8192 × 256), the previous
  hidden state `hp` (8192 × 1024), the feature means `xm` (256), two decay layers (`Wgx` 256 × 256 with bias `bgx`;
  `Wgh` 1024 × 256 with bias `bgh`) and the gate weights (`Wih` 3072 × 512 with bias `bih`; `Whh` 3072 × 1024 with bias
  `bhh`). Every weight matrix is stored output-row first, so a layer's output `j` contracts the input against ROW `j`.

  For a batch row `b`:
    decayIn  b j = exp (-(max (Σ_k d[b,k] · Wgx[j,k] + bgx[j]) 0))
    decayHid b j = exp (-(max (Σ_k d[b,k] · Wgh[j,k] + bgh[j]) 0))
    imputed  b j = msk · x + (1 - msk) · (decayIn · xp + (1 - decayIn) · xm[j])          (all at [b,j])
    decayed  b j = decayHid b j · hp[b,j]
    inPre    b r = (Σ_{k<256} imputed b k · Wih[r,k] + Σ_{k<256} msk[b,k] · Wih[r,256+k]) + bih[r]
    hidPre   b r = Σ_{k<1024} decayed b k · Whh[r,k] + bhh[r]
  and with the reset gate `ρ = σ (inPre b j + hidPre b j)`, the update gate `ζ = σ (inPre b (1024+j) + hidPre b (1024+j))`
  and the candidate `ν = tanh (inPre b (2048+j) + ρ · hidPre b (2048+j))`, the new hidden state is
    newHidden b j = (1 - ζ) · ν + ζ · decayed b j.
  The two results are `newHidden` (8192 × 1024) and `imputed` (8192 × 256).

  The only algebra below is that a sum over 512 indices is the sum over the first 256 plus the sum over the last 256:
  addition on the extended reals is commutative and associative, so no finiteness is involved.
-/
import Idealize.ShloMosaic.PureOps.Ideal
import Idealize.ShloMosaic.Lib.ValueIdx

noncomputable section

namespace Cert.Cell

open Idealize.ShloMosaic Idealize.ShloMosaic.ValueIdx

/-- batch × input features -/
abbrev Sbi : Shape := ⟨2, ![8192, 256]⟩
/-- batch × hidden units -/
abbrev Sbh : Shape := ⟨2, ![8192, 1024]⟩
abbrev Si : Shape := ⟨1, ![256]⟩
abbrev Sh : Shape := ⟨1, ![1024]⟩
abbrev Sg : Shape := ⟨1, ![3072]⟩
abbrev Sii : Shape := ⟨2, ![256, 256]⟩
abbrev Shi : Shape := ⟨2, ![1024, 256]⟩
abbrev Sgc : Shape := ⟨2, ![3072, 512]⟩
abbrev Sgh : Shape := ⟨2, ![3072, 1024]⟩

/-- The fourteen argument arrays. -/
structure Args where
  x : Sbi.Idx → EReal
  msk : Sbi.Idx → EReal
  d : Sbi.Idx → EReal
  hp : Sbh.Idx → EReal
  xp : Sbi.Idx → EReal
  xm : Si.Idx → EReal
  Wgx : Sii.Idx → EReal
  bgx : Si.Idx → EReal
  Wgh : Shi.Idx → EReal
  bgh : Sh.Idx → EReal
  Wih : Sgc.Idx → EReal
  bih : Sg.Idx → EReal
  Whh : Sgh.Idx → EReal
  bhh : Sg.Idx → EReal

/-- Column `k` of the first half of the 512 gate-input columns (the imputed observation's). -/
abbrev colLo (k : Fin 256) : Fin 512 := ⟨k.val, by have := k.isLt; omega⟩
/-- Column `256 + k`, of the second half (the mask's). -/
abbrev colHi (k : Fin 256) : Fin 512 := ⟨256 + k.val, by have := k.isLt; omega⟩
/-- The three stacked gate blocks of the 3072 gate rows: reset rows `j`, update rows `1024 + j`, candidate rows `2048 + j`. -/
abbrev rowReset (j : Fin 1024) : Fin 3072 := ⟨j.val, by have := j.isLt; omega⟩
abbrev rowUpdate (j : Fin 1024) : Fin 3072 := ⟨1024 + j.val, by have := j.isLt; omega⟩
abbrev rowCand (j : Fin 1024) : Fin 3072 := ⟨2048 + j.val, by have := j.isLt; omega⟩

variable (A : Args)

def decayIn (b : Fin 8192) (j : Fin 256) : EReal :=
  Ideal.exp (-(max ((∑ k : Fin 256, A.d (ix2 b k) * A.Wgx (ix2 j k)) + A.bgx (ix1 j)) 0))

def decayHid (b : Fin 8192) (j : Fin 1024) : EReal :=
  Ideal.exp (-(max ((∑ k : Fin 256, A.d (ix2 b k) * A.Wgh (ix2 j k)) + A.bgh (ix1 j)) 0))

def imputed (b : Fin 8192) (j : Fin 256) : EReal :=
  A.msk (ix2 b j) * A.x (ix2 b j)
    + (1 - A.msk (ix2 b j)) * (decayIn A b j * A.xp (ix2 b j) + (1 - decayIn A b j) * A.xm (ix1 j))

def decayed (b : Fin 8192) (j : Fin 1024) : EReal := decayHid A b j * A.hp (ix2 b j)

def inPre (b : Fin 8192) (r : Fin 3072) : EReal :=
  ((∑ k : Fin 256, imputed A b k * A.Wih (ix2 r (colLo k))) + (∑ k : Fin 256, A.msk (ix2 b k) * A.Wih (ix2 r (colHi k))))
    + A.bih (ix1 r)

def hidPre (b : Fin 8192) (r : Fin 3072) : EReal :=
  (∑ k : Fin 1024, decayed A b k * A.Whh (ix2 r k)) + A.bhh (ix1 r)

/-- A gate: the logistic function of the two pre-activations' sum, at the gate's block of rows. -/
def gate (row : Fin 1024 → Fin 3072) (b : Fin 8192) (j : Fin 1024) : EReal :=
  Ideal.logistic (inPre A b (row j) + hidPre A b (row j))

def candidate (b : Fin 8192) (j : Fin 1024) : EReal :=
  Ideal.tanh (inPre A b (rowCand j) + gate A rowReset b j * hidPre A b (rowCand j))

def newHidden (b : Fin 8192) (j : Fin 1024) : EReal :=
  (1 - gate A rowUpdate b j) * candidate A b j + gate A rowUpdate b j * decayed A b j

/-- The first result array. -/
def hNew : Sbh.Idx → EReal := fun i => newHidden A (i 0) (i 1)
/-- The second result array. -/
def xTilde : Sbi.Idx → EReal := fun i => imputed A (i 0) (i 1)

theorem hNew_apply (b : Fin 8192) (j : Fin 1024) : hNew A (ix2 b j) = newHidden A b j := rfl
theorem xTilde_apply (b : Fin 8192) (j : Fin 256) : xTilde A (ix2 b j) = imputed A b j := rfl

/-- A sum over the 512 gate-input columns is the sum over the first half plus the sum over the second half. -/
theorem sum_cols (f : Fin 512 → EReal) :
    ∑ k : Fin 512, f k = (∑ k : Fin 256, f (colLo k)) + ∑ k : Fin 256, f (colHi k) :=
  Fin.sum_univ_add (a := 256) (b := 256) (f : Fin (256 + 256) → EReal)

end Cert.Cell

end
-- ==== Proof.RefCell.lean ====
/-
  The reference computes the cell. Each stage of the reference program, read at an index `(b, j)`, is the corresponding
  function of `Cert.Cell`: the reference transposes each weight matrix and contracts the input's last axis against the
  transposed matrix's first, which at an index is the contraction against the matrix's ROW; it broadcasts each bias along
  the batch axis; it negates where the cell negates, and spells the logistic function `1 / (1 + exp (-t))`, which is
  the logistic function's definition on the extended reals. Its one matrix product over the 512 joined columns
  (imputed observation, then mask) is the two 256-column sums added (`Cert.Cell.sum_cols`).
-/
import proofs.«166864_j90941637525969_2_alg».proof.Proof.Gen.ReferenceIdeal.Read
import proofs.«166864_j90941637525969_2_alg».proof.Proof.Cell
import Idealize.ShloMosaic.Lib.IdealHost

noncomputable section

namespace Cert.ReferenceIdeal.RefCell

open Cert.ReferenceIdeal Cert.ReferenceIdeal.Read Cert.Cell Idealize.ShloMosaic Idealize.ShloMosaic.ValueIdx

/-- Two rank-2 indices are equal when their coordinates are. -/
local macro "idx2" : tactic =>
  `(tactic| (funext a; apply Fin.ext; match a with | ⟨0, _⟩ => rfl | ⟨1, _⟩ => rfl))
local macro "idx1" : tactic =>
  `(tactic| (funext a; apply Fin.ext; match a with | ⟨0, _⟩ => rfl))

variable (A : Args)

/-! ## The input decay -/

theorem lidx1 (b : Fin 8192) (j k : Fin 256) : lidx_main_v1 (ix2 b j) k = ix2 b k := by idx2
theorem ridx1 (b : Fin 8192) (j k : Fin 256) : ridx_main_v1 (ix2 b j) k = ix2 k j := by idx2
theorem tr0 (k j : Fin 256) : idx_main_v0 (ix2 k j) = ix2 j k := by idx2
theorem bc3 (b : Fin 8192) (j : Fin 256) : idx_main_v3 (ix2 b j) = ix2 (0 : Fin 1) j := by idx2
theorem bc2 (z : Fin 1) (j : Fin 256) : idx_main_v2 (ix2 z j) = ix1 j := by idx1

theorem decayIn_eq (b : Fin 8192) (j : Fin 256) :
    val_main_v7 (F := Ideal) A.d A.Wgx A.bgx (ix2 b j) = decayIn A b j := by
  simp only [val_main_v7_apply, val_main_v6_apply, val_main_v5_apply, val_main_v4_apply, val_main_v1_apply,
    val_main_v0_apply, val_main_v3_apply, val_main_v2_apply, val_main_call0_v0_apply, val_main_call0_cst_apply,
    lidx1, ridx1, tr0, bc3, bc2, Ideal.hostUnary_exp_def, Ideal.hostNegf_def, Ideal.negf_def, Ideal.maximumf_def,
    Ideal.addf_def, Ideal.ofBits_def, Ideal.ofBits_zero_f32]
  rfl

/-! ## The hidden decay -/

theorem lidx9 (b : Fin 8192) (j : Fin 1024) (k : Fin 256) : lidx_main_v9 (ix2 b j) k = ix2 b k := by idx2
theorem ridx9 (b : Fin 8192) (j : Fin 1024) (k : Fin 256) : ridx_main_v9 (ix2 b j) k = ix2 k j := by idx2
theorem tr8 (k : Fin 256) (j : Fin 1024) : idx_main_v8 (ix2 k j) = ix2 j k := by idx2
theorem bc11 (b : Fin 8192) (j : Fin 1024) : idx_main_v11 (ix2 b j) = ix2 (0 : Fin 1) j := by idx2
theorem bc10 (z : Fin 1) (j : Fin 1024) : idx_main_v10 (ix2 z j) = ix1 j := by idx1

theorem decayHid_eq (b : Fin 8192) (j : Fin 1024) :
    val_main_v15 (F := Ideal) A.d A.Wgh A.bgh (ix2 b j) = decayHid A b j := by
  simp only [val_main_v15_apply, val_main_v14_apply, val_main_v13_apply, val_main_v12_apply, val_main_v9_apply,
    val_main_v8_apply, val_main_v11_apply, val_main_v10_apply, val_main_call1_v0_apply, val_main_call1_cst_apply,
    lidx9, ridx9, tr8, bc11, bc10, Ideal.hostUnary_exp_def, Ideal.hostNegf_def, Ideal.negf_def, Ideal.maximumf_def,
    Ideal.addf_def, Ideal.ofBits_def, Ideal.ofBits_zero_f32]
  rfl

/-! ## The imputed observation and the decayed hidden state -/

theorem bc23 (b : Fin 8192) (j : Fin 256) : idx_main_v23 (ix2 b j) = ix2 (0 : Fin 1) j := by idx2
theorem bc22 (z : Fin 1) (j : Fin 256) : idx_main_v22 (ix2 z j) = ix1 j := by idx1

theorem imputed_eq (b : Fin 8192) (j : Fin 256) :
    val_main_v27 (F := Ideal) A.x A.msk A.d A.xp A.xm A.Wgx A.bgx (ix2 b j) = imputed A b j := by
  simp only [val_main_v27_apply, val_main_v26_apply, val_main_v25_apply, val_main_v24_apply, val_main_v23_apply,
    val_main_v22_apply, val_main_v21_apply, val_main_v20_apply, val_main_cst_0_apply, val_main_v19_apply,
    val_main_v18_apply, val_main_v17_apply, val_main_cst_apply, val_main_v16_apply, decayIn_eq, bc23, bc22,
    Ideal.addf_def, Ideal.mulf_def, Ideal.subf_def, Ideal.ofBits_def, Ideal.ofBits_one_f32]
  rfl

theorem decayed_eq (b : Fin 8192) (j : Fin 1024) :
    val_main_v28 (F := Ideal) A.d A.hp A.Wgh A.bgh (ix2 b j) = decayed A b j := by
  simp only [val_main_v28_apply, decayHid_eq, Ideal.mulf_def]
  rfl

/-! ## The joined columns: imputed observation on the first 256, mask on the last 256 -/

theorem cat_lo (b : Fin 8192) (k : Fin 256) :
    val_main_v29 (F := Ideal) A.x A.msk A.d A.xp A.xm A.Wgx A.bgx (ix2 b (colLo k)) = imputed A b k := by
  unfold val_main_v29
  exact (concatenate_pair_apply_left (s₁ := S8192x256) (s₂ := S8192x256) _ _ _ _ (ix2 b (colLo k)) rfl (ix2 b k)
    (fun a => match a with | ⟨0, _⟩ => rfl | ⟨1, _⟩ => rfl)).trans (imputed_eq A b k)

theorem cat_hi (b : Fin 8192) (k : Fin 256) :
    val_main_v29 (F := Ideal) A.x A.msk A.d A.xp A.xm A.Wgx A.bgx (ix2 b (colHi k)) = A.msk (ix2 b k) := by
  unfold val_main_v29
  exact concatenate_pair_apply_right (s₁ := S8192x256) (s₂ := S8192x256) _ _ _ _ (ix2 b (colHi k)) rfl rfl (ix2 b k)
    (fun a ha => match a, ha with | ⟨0, _⟩, _ => rfl | ⟨1, _⟩, ha => absurd rfl ha)
    (Nat.add_comm _ _)

/-! ## The two pre-activations -/

theorem lidx31 (b : Fin 8192) (r : Fin 3072) (k : Fin 512) : lidx_main_v31 (ix2 b r) k = ix2 b k := by idx2
theorem ridx31 (b : Fin 8192) (r : Fin 3072) (k : Fin 512) : ridx_main_v31 (ix2 b r) k = ix2 k r := by idx2
theorem tr30 (k : Fin 512) (r : Fin 3072) : idx_main_v30 (ix2 k r) = ix2 r k := by idx2
theorem bc33 (b : Fin 8192) (r : Fin 3072) : idx_main_v33 (ix2 b r) = ix2 (0 : Fin 1) r := by idx2
theorem bc32 (z : Fin 1) (r : Fin 3072) : idx_main_v32 (ix2 z r) = ix1 r := by idx1

theorem inPre_eq (b : Fin 8192) (r : Fin 3072) :
    val_main_v34 (F := Ideal) A.x A.msk A.d A.xp A.xm A.Wgx A.bgx A.Wih A.bih (ix2 b r) = inPre A b r := by
  simp only [val_main_v34_apply, val_main_v31_apply, val_main_v30_apply, val_main_v33_apply, val_main_v32_apply,
    lidx31, ridx31, tr30, bc33, bc32, Ideal.addf_def]
  rw [sum_cols]
  simp only [cat_lo, cat_hi]
  rfl

theorem lidx36 (b : Fin 8192) (r : Fin 3072) (k : Fin 1024) : lidx_main_v36 (ix2 b r) k = ix2 b k := by idx2
theorem ridx36 (b : Fin 8192) (r : Fin 3072) (k : Fin 1024) : ridx_main_v36 (ix2 b r) k = ix2 k r := by idx2
theorem tr35 (k : Fin 1024) (r : Fin 3072) : idx_main_v35 (ix2 k r) = ix2 r k := by idx2
theorem bc38 (b : Fin 8192) (r : Fin 3072) : idx_main_v38 (ix2 b r) = ix2 (0 : Fin 1) r := by idx2
theorem bc37 (z : Fin 1) (r : Fin 3072) : idx_main_v37 (ix2 z r) = ix1 r := by idx1

theorem hidPre_eq (b : Fin 8192) (r : Fin 3072) :
    val_main_v39 (F := Ideal) A.d A.hp A.Wgh A.bgh A.Whh A.bhh (ix2 b r) = hidPre A b r := by
  simp only [val_main_v39_apply, val_main_v36_apply, val_main_v35_apply, val_main_v38_apply, val_main_v37_apply,
    lidx36, ridx36, tr35, bc38, bc37, decayed_eq, Ideal.addf_def]
  rfl

/-! ## The gates, the candidate and the new hidden state -/

theorem sl40 (b : Fin 8192) (j : Fin 1024) : idx_main_v40 (ix2 b j) = ix2 b (rowReset j) := by idx2
theorem sl41 (b : Fin 8192) (j : Fin 1024) : idx_main_v41 (ix2 b j) = ix2 b (rowUpdate j) := by idx2
theorem sl42 (b : Fin 8192) (j : Fin 1024) : idx_main_v42 (ix2 b j) = ix2 b (rowCand j) := by idx2
theorem sl43 (b : Fin 8192) (j : Fin 1024) : idx_main_v43 (ix2 b j) = ix2 b (rowReset j) := by idx2
theorem sl44 (b : Fin 8192) (j : Fin 1024) : idx_main_v44 (ix2 b j) = ix2 b (rowUpdate j) := by idx2
theorem sl45 (b : Fin 8192) (j : Fin 1024) : idx_main_v45 (ix2 b j) = ix2 b (rowCand j) := by idx2

/-- The reset gate: the reference spells the logistic function as `1 / (1 + exp (-t))`. -/
theorem reset_eq (b : Fin 8192) (j : Fin 1024) :
    val_main_v52 (F := Ideal) A.x A.msk A.d A.hp A.xp A.xm A.Wgx A.bgx A.Wgh A.bgh A.Wih A.bih A.Whh A.bhh (ix2 b j) = gate A rowReset b j := by
  simp only [val_main_v52_apply, val_main_v51_apply, val_main_cst_2_apply, val_main_v50_apply, val_main_v49_apply,
    val_main_cst_1_apply, val_main_v48_apply, val_main_v47_apply, val_main_v46_apply, val_main_v40_apply,
    val_main_v43_apply, sl40, sl43, inPre_eq, hidPre_eq, Ideal.hostDivf_def, Ideal.addf_def, Ideal.hostUnary_exp_def,
    Ideal.hostNegf_def, Ideal.negf_def, Ideal.ofBits_def, Ideal.ofBits_one_f32]
  rfl

theorem update_eq (b : Fin 8192) (j : Fin 1024) :
    val_main_v59 (F := Ideal) A.x A.msk A.d A.hp A.xp A.xm A.Wgx A.bgx A.Wgh A.bgh A.Wih A.bih A.Whh A.bhh (ix2 b j) = gate A rowUpdate b j := by
  simp only [val_main_v59_apply, val_main_v58_apply, val_main_cst_4_apply, val_main_v57_apply, val_main_v56_apply,
    val_main_cst_3_apply, val_main_v55_apply, val_main_v54_apply, val_main_v53_apply, val_main_v41_apply,
    val_main_v44_apply, sl41, sl44, inPre_eq, hidPre_eq, Ideal.hostDivf_def, Ideal.addf_def, Ideal.hostUnary_exp_def,
    Ideal.hostNegf_def, Ideal.negf_def, Ideal.ofBits_def, Ideal.ofBits_one_f32]
  rfl

theorem candidate_eq (b : Fin 8192) (j : Fin 1024) :
    val_main_v62 (F := Ideal) A.x A.msk A.d A.hp A.xp A.xm A.Wgx A.bgx A.Wgh A.bgh A.Wih A.bih A.Whh A.bhh (ix2 b j) = candidate A b j := by
  simp only [val_main_v62_apply, val_main_v61_apply, val_main_v60_apply, val_main_v42_apply, val_main_v45_apply,
    sl42, sl45, reset_eq, inPre_eq, hidPre_eq, Ideal.hostUnary_tanh_def, Ideal.addf_def, Ideal.mulf_def]
  rfl

theorem newHidden_eq (b : Fin 8192) (j : Fin 1024) :
    val_main_v67 (F := Ideal) A.x A.msk A.d A.hp A.xp A.xm A.Wgx A.bgx A.Wgh A.bgh A.Wih A.bih A.Whh A.bhh (ix2 b j) = newHidden A b j := by
  simp only [val_main_v67_apply, val_main_v66_apply, val_main_v65_apply, val_main_v64_apply, val_main_v63_apply,
    val_main_cst_5_apply, update_eq, candidate_eq, decayed_eq, Ideal.addf_def, Ideal.mulf_def, Ideal.subf_def,
    Ideal.ofBits_def, Ideal.ofBits_one_f32]
  rfl

/-! ## The two results, as whole arrays -/

theorem hNew_eq : val_main_v67 (F := Ideal) A.x A.msk A.d A.hp A.xp A.xm A.Wgx A.bgx A.Wgh A.bgh A.Wih A.bih A.Whh A.bhh = hNew A := by
  funext i
  rw [eq_ix2 i]
  exact newHidden_eq A (i 0) (i 1)

theorem xTilde_eq : val_main_v27 (F := Ideal) A.x A.msk A.d A.xp A.xm A.Wgx A.bgx = xTilde A := by
  funext i
  rw [eq_ix2 i]
  exact imputed_eq A (i 0) (i 1)

end Cert.ReferenceIdeal.RefCell

end
-- ==== Proof.Layout.lean ====
/-
  The kernel body's layout operations read at an index, at the ideal values.

  Each of the body's matrix products contracts the LAST axis of both operands into a zero accumulator, so its entry
  `(p, q)` is the sum over `k` of the left operand's row `p` times the right operand's row `q`: three contraction shapes
  occur. A bias, stored as a 1 × n row, is broadcast down the 512 rows of the block. The gate weights are stored
  stacked (3072 rows: reset, update, candidate; 512 columns: observation, mask) and the body cuts them by unit-stride
  slices: a slice at offset `o` reads the operand at `o + ` the index.
-/
import proofs.«166864_j90941637525969_2_alg».proof.Proof.Gen.KernelIdeal
import proofs.«166864_j90941637525969_2_alg».proof.Proof.Cell
import Idealize.ShloMosaic.Lib.Pipeline.Value
import Idealize.ShloMosaic.Lib.ValueIdx
import Idealize.ShloMosaic.PureOps.Ideal.Laws

noncomputable section

namespace Cert.KernelIdeal.Layout

open Cert.KernelIdeal Cert.Cell Idealize.ShloMosaic Idealize.ShloMosaic.ValueIdx

/-! ## The three contraction shapes -/

/-! ### a 512 × 256 block against a 256 × 256 matrix's rows -/

theorem lhs0_ii (i : S512x256.Idx) (q : dot_S512x256_S256x256_S512x256_1_1_0_0_n_n.contr.Idx) : (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
theorem lhs1_ii (i : S512x256.Idx) (q : dot_S512x256_S256x256_S512x256_1_1_0_0_n_n.contr.Idx) : (dot_S512x256_S256x256_S512x256_1_1_0_0_n_n.lhsIdx i q 1).val = (q ⟨0, by decide⟩).val :=
  dot_S512x256_S256x256_S512x256_1_1_0_0_n_n.lhsIdx_val_of_single rfl i q
theorem rhs0_ii (i : S512x256.Idx) (q : dot_S512x256_S256x256_S512x256_1_1_0_0_n_n.contr.Idx) : (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
theorem rhs1_ii (i : S512x256.Idx) (q : dot_S512x256_S256x256_S512x256_1_1_0_0_n_n.contr.Idx) : (dot_S512x256_S256x256_S512x256_1_1_0_0_n_n.rhsIdx i q 1).val = (q ⟨0, by decide⟩).val :=
  dot_S512x256_S256x256_S512x256_1_1_0_0_n_n.rhsIdx_val_of_single rfl i q

/-- Entry `(p, q)` of the product into a zero accumulator: row `p` of the left operand against row `q` of the right. -/
theorem matmul_ii {φa φw : FTy} (a : FVec Ideal S512x256 φa) (w : FVec Ideal S256x256 φw) (p : Fin 512) (q : Fin 256) :
    matmul dot_S512x256_S256x256_S512x256_1_1_0_0_n_n none a w (constant S512x256 .f32 0x00000000#32) (ix2 p q)
      = ∑ k : Fin 256, a (ix2 p k) * w (ix2 q k) := by
  refine (Ideal.matmul_constant_zero_apply dot_S512x256_S256x256_S512x256_1_1_0_0_n_n none a w (ix2 p q)).trans ?_
  rw [← Equiv.sum_comp (contrEquiv1 dot_S512x256_S256x256_S512x256_1_1_0_0_n_n 256 rfl rfl).symm]
  refine Finset.sum_congr rfl fun k _ => ?_
  have hk := contrEquiv1_symm_val dot_S512x256_S256x256_S512x256_1_1_0_0_n_n 256 rfl rfl k
  have el : dot_S512x256_S256x256_S512x256_1_1_0_0_n_n.lhsIdx (ix2 p q) ((contrEquiv1 dot_S512x256_S256x256_S512x256_1_1_0_0_n_n 256 rfl rfl).symm k) = ix2 p k := funext fun a => Fin.ext (by
    match a with
    | ⟨0, _⟩ => exact lhs0_ii _ _
    | ⟨1, _⟩ => exact (lhs1_ii _ _).trans hk)
  have er : dot_S512x256_S256x256_S512x256_1_1_0_0_n_n.rhsIdx (ix2 p q) ((contrEquiv1 dot_S512x256_S256x256_S512x256_1_1_0_0_n_n 256 rfl rfl).symm k) = ix2 q k := funext fun a => Fin.ext (by
    match a with
    | ⟨0, _⟩ => exact rhs0_ii _ _
    | ⟨1, _⟩ => exact (rhs1_ii _ _).trans hk)
  rw [el, er]

/-! ### a 512 × 256 block against a 1024 × 256 matrix's rows -/

theorem lhs0_hi (i : S512x1024.Idx) (q : dot_S512x256_S1024x256_S512x1024_1_1_0_0_n_n.contr.Idx) : (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs1_hi (i : S512x1024.Idx) (q : dot_S512x256_S1024x256_S512x1024_1_1_0_0_n_n.contr.Idx) : (dot_S512x256_S1024x256_S512x1024_1_1_0_0_n_n.lhsIdx i q 1).val = (q ⟨0, by decide⟩).val :=
  dot_S512x256_S1024x256_S512x1024_1_1_0_0_n_n.lhsIdx_val_of_single rfl i q
theorem rhs0_hi (i : S512x1024.Idx) (q : dot_S512x256_S1024x256_S512x1024_1_1_0_0_n_n.contr.Idx) : (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs1_hi (i : S512x1024.Idx) (q : dot_S512x256_S1024x256_S512x1024_1_1_0_0_n_n.contr.Idx) : (dot_S512x256_S1024x256_S512x1024_1_1_0_0_n_n.rhsIdx i q 1).val = (q ⟨0, by decide⟩).val :=
  dot_S512x256_S1024x256_S512x1024_1_1_0_0_n_n.rhsIdx_val_of_single rfl i q

/-- Entry `(p, q)` of the product into a zero accumulator: row `p` of the left operand against row `q` of the right. -/
theorem matmul_hi {φa φw : FTy} (a : FVec Ideal S512x256 φa) (w : FVec Ideal S1024x256 φw) (p : Fin 512) (q : Fin 1024) :
    matmul dot_S512x256_S1024x256_S512x1024_1_1_0_0_n_n none a w (constant S512x1024 .f32 0x00000000#32) (ix2 p q)
      = ∑ k : Fin 256, a (ix2 p k) * w (ix2 q k) := by
  refine (Ideal.matmul_constant_zero_apply dot_S512x256_S1024x256_S512x1024_1_1_0_0_n_n none a w (ix2 p q)).trans ?_
  rw [← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p q) ((contrEquiv1 dot_S512x256_S1024x256_S512x1024_1_1_0_0_n_n 256 rfl rfl).symm k) = ix2 p k := funext fun a => Fin.ext (by
    match a with
    | ⟨0, _⟩ => exact lhs0_hi _ _
    | ⟨1, _⟩ => exact (lhs1_hi _ _).trans hk)
  have er : dot_S512x256_S1024x256_S512x1024_1_1_0_0_n_n.rhsIdx (ix2 p q) ((contrEquiv1 dot_S512x256_S1024x256_S512x1024_1_1_0_0_n_n 256 rfl rfl).symm k) = ix2 q k := funext fun a => Fin.ext (by
    match a with
    | ⟨0, _⟩ => exact rhs0_hi _ _
    | ⟨1, _⟩ => exact (rhs1_hi _ _).trans hk)
  rw [el, er]

/-! ### a 512 × 1024 block against a 1024 × 1024 matrix's rows -/

theorem lhs0_hh (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs1_hh (i : S512x1024.Idx) (q : dot_S512x1024_S1024x1024_S512x1024_1_1_0_0_n_n.contr.Idx) : (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs0_hh (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs1_hh (i : S512x1024.Idx) (q : dot_S512x1024_S1024x1024_S512x1024_1_1_0_0_n_n.contr.Idx) : (dot_S512x1024_S1024x1024_S512x1024_1_1_0_0_n_n.rhsIdx i q 1).val = (q ⟨0, by decide⟩).val :=
  dot_S512x1024_S1024x1024_S512x1024_1_1_0_0_n_n.rhsIdx_val_of_single rfl i q

/-- Entry `(p, q)` of the product into a zero accumulator: row `p` of the left operand against row `q` of the right. -/
theorem matmul_hh {φa φw : FTy} (a : FVec Ideal S512x1024 φa) (w : FVec Ideal S1024x1024 φw) (p : Fin 512) (q : Fin 1024) :
    matmul dot_S512x1024_S1024x1024_S512x1024_1_1_0_0_n_n none a w (constant S512x1024 .f32 0x00000000#32) (ix2 p q)
      = ∑ k : Fin 1024, a (ix2 p k) * w (ix2 q k) := by
  refine (Ideal.matmul_constant_zero_apply dot_S512x1024_S1024x1024_S512x1024_1_1_0_0_n_n none a w (ix2 p q)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs0_hh _ _
    | ⟨1, _⟩ => exact (lhs1_hh _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs0_hh _ _
    | ⟨1, _⟩ => exact (rhs1_hh _ _).trans hk)
  rw [el, er]

/-! ## A bias row broadcast down the block's 512 rows -/

theorem rowBcast_i {φ : FTy} (v : FVec Ideal S1x256 φ) (h : S1x256.Broadcasts S512x256) (p : Fin 512) (j : Fin 256) :
    broadcastTo S512x256 v h (ix2 p j) = v (ix2 (0 : Fin 1) j) :=
  broadcastTo_apply v h (ix2 p j) (ix2 (0 : Fin 1) j) (fun a => match a with
    | ⟨0, _⟩ => by show 0 = (if (1 : Nat) = 1 then 0 else p.val); rw [if_pos rfl]
    | ⟨1, _⟩ => by show j.val = (if (256 : Nat) = 1 then 0 else j.val); rw [if_neg (by decide)])

theorem rowBcast_h {φ : FTy} (v : FVec Ideal S1x1024 φ) (h : S1x1024.Broadcasts S512x1024) (p : Fin 512) (j : Fin 1024) :
    broadcastTo S512x1024 v h (ix2 p j) = v (ix2 (0 : Fin 1) j) :=
  broadcastTo_apply v h (ix2 p j) (ix2 (0 : Fin 1) j) (fun a => match a with
    | ⟨0, _⟩ => by show 0 = (if (1 : Nat) = 1 then 0 else p.val); rw [if_pos rfl]
    | ⟨1, _⟩ => by show j.val = (if (1024 : Nat) = 1 then 0 else j.val); rw [if_neg (by decide)])

/-! ## Slices of the stacked gate weights and biases -/

/-- The first 256 of the 512 gate-input columns. -/
theorem cols_lo {φ : FTy} (w : FVec Ideal S3072x512 φ) (h : S3072x512.Slices ![0, 0] S3072x256) (r : Fin 3072) (k : Fin 256) :
    extractStridedSlice S3072x256 ![0, 0] w h (ix2 r k) = w (ix2 r (colLo k)) :=
  extractStridedSlice_apply ![0, 0] w h (ix2 r k) (ix2 r (colLo k)) (fun a => match a with | ⟨0, _⟩ => by (first | rfl | exact (Nat.zero_add _).symm) | ⟨1, _⟩ => by (first | rfl | exact (Nat.zero_add _).symm))

/-- The last 256 of the 512 gate-input columns. -/
theorem cols_hi {φ : FTy} (w : FVec Ideal S3072x512 φ) (h : S3072x512.Slices ![0, 256] S3072x256) (r : Fin 3072) (k : Fin 256) :
    extractStridedSlice S3072x256 ![0, 256] w h (ix2 r k) = w (ix2 r (colHi k)) :=
  extractStridedSlice_apply ![0, 256] w h (ix2 r k) (ix2 r (colHi k)) (fun a => match a with | ⟨0, _⟩ => by (first | rfl | exact (Nat.zero_add _).symm) | ⟨1, _⟩ => by (first | rfl | exact (Nat.zero_add _).symm))

/-- The reset block of 1024 rows, of a 256-column matrix. -/
theorem rowsReset_i {φ : FTy} (w : FVec Ideal S3072x256 φ) (h : S3072x256.Slices ![0, 0] S1024x256) (q : Fin 1024) (k : Fin 256) :
    extractStridedSlice S1024x256 ![0, 0] w h (ix2 q k) = w (ix2 (rowReset q) k) :=
  extractStridedSlice_apply ![0, 0] w h (ix2 q k) (ix2 (rowReset q) k) (fun a => match a with | ⟨0, _⟩ => by (first | rfl | exact (Nat.zero_add _).symm) | ⟨1, _⟩ => by (first | rfl | exact (Nat.zero_add _).symm))

/-- The reset block of 1024 rows, of a 1024-column matrix. -/
theorem rowsReset_h {φ : FTy} (w : FVec Ideal S3072x1024 φ) (h : S3072x1024.Slices ![0, 0] S1024x1024) (q k : Fin 1024) :
    extractStridedSlice S1024x1024 ![0, 0] w h (ix2 q k) = w (ix2 (rowReset q) k) :=
  extractStridedSlice_apply ![0, 0] w h (ix2 q k) (ix2 (rowReset q) k) (fun a => match a with | ⟨0, _⟩ => by (first | rfl | exact (Nat.zero_add _).symm) | ⟨1, _⟩ => by (first | rfl | exact (Nat.zero_add _).symm))

/-- The reset block of 1024 entries of a bias row. -/
theorem biasReset {φ : FTy} (v : FVec Ideal S1x3072 φ) (h : S1x3072.Slices ![0, 0] S1x1024) (z : Fin 1) (q : Fin 1024) :
    extractStridedSlice S1x1024 ![0, 0] v h (ix2 z q) = v (ix2 z (rowReset q)) :=
  extractStridedSlice_apply ![0, 0] v h (ix2 z q) (ix2 z (rowReset q)) (fun a => match a with | ⟨0, _⟩ => by (first | rfl | exact (Nat.zero_add _).symm) | ⟨1, _⟩ => by (first | rfl | exact (Nat.zero_add _).symm))

/-- The update block of 1024 rows, of a 256-column matrix. -/
theorem rowsUpdate_i {φ : FTy} (w : FVec Ideal S3072x256 φ) (h : S3072x256.Slices ![1024, 0] S1024x256) (q : Fin 1024) (k : Fin 256) :
    extractStridedSlice S1024x256 ![1024, 0] w h (ix2 q k) = w (ix2 (rowUpdate q) k) :=
  extractStridedSlice_apply ![1024, 0] w h (ix2 q k) (ix2 (rowUpdate q) k) (fun a => match a with | ⟨0, _⟩ => by (first | rfl | exact (Nat.zero_add _).symm) | ⟨1, _⟩ => by (first | rfl | exact (Nat.zero_add _).symm))

/-- The update block of 1024 rows, of a 1024-column matrix. -/
theorem rowsUpdate_h {φ : FTy} (w : FVec Ideal S3072x1024 φ) (h : S3072x1024.Slices ![1024, 0] S1024x1024) (q k : Fin 1024) :
    extractStridedSlice S1024x1024 ![1024, 0] w h (ix2 q k) = w (ix2 (rowUpdate q) k) :=
  extractStridedSlice_apply ![1024, 0] w h (ix2 q k) (ix2 (rowUpdate q) k) (fun a => match a with | ⟨0, _⟩ => by (first | rfl | exact (Nat.zero_add _).symm) | ⟨1, _⟩ => by (first | rfl | exact (Nat.zero_add _).symm))

/-- The update block of 1024 entries of a bias row. -/
theorem biasUpdate {φ : FTy} (v : FVec Ideal S1x3072 φ) (h : S1x3072.Slices ![0, 1024] S1x1024) (z : Fin 1) (q : Fin 1024) :
    extractStridedSlice S1x1024 ![0, 1024] v h (ix2 z q) = v (ix2 z (rowUpdate q)) :=
  extractStridedSlice_apply ![0, 1024] v h (ix2 z q) (ix2 z (rowUpdate q)) (fun a => match a with | ⟨0, _⟩ => by (first | rfl | exact (Nat.zero_add _).symm) | ⟨1, _⟩ => by (first | rfl | exact (Nat.zero_add _).symm))

/-- The cand block of 1024 rows, of a 256-column matrix. -/
theorem rowsCand_i {φ : FTy} (w : FVec Ideal S3072x256 φ) (h : S3072x256.Slices ![2048, 0] S1024x256) (q : Fin 1024) (k : Fin 256) :
    extractStridedSlice S1024x256 ![2048, 0] w h (ix2 q k) = w (ix2 (rowCand q) k) :=
  extractStridedSlice_apply ![2048, 0] w h (ix2 q k) (ix2 (rowCand q) k) (fun a => match a with | ⟨0, _⟩ => by (first | rfl | exact (Nat.zero_add _).symm) | ⟨1, _⟩ => by (first | rfl | exact (Nat.zero_add _).symm))

/-- The cand block of 1024 rows, of a 1024-column matrix. -/
theorem rowsCand_h {φ : FTy} (w : FVec Ideal S3072x1024 φ) (h : S3072x1024.Slices ![2048, 0] S1024x1024) (q k : Fin 1024) :
    extractStridedSlice S1024x1024 ![2048, 0] w h (ix2 q k) = w (ix2 (rowCand q) k) :=
  extractStridedSlice_apply ![2048, 0] w h (ix2 q k) (ix2 (rowCand q) k) (fun a => match a with | ⟨0, _⟩ => by (first | rfl | exact (Nat.zero_add _).symm) | ⟨1, _⟩ => by (first | rfl | exact (Nat.zero_add _).symm))

/-- The cand block of 1024 entries of a bias row. -/
theorem biasCand {φ : FTy} (v : FVec Ideal S1x3072 φ) (h : S1x3072.Slices ![0, 2048] S1x1024) (z : Fin 1) (q : Fin 1024) :
    extractStridedSlice S1x1024 ![0, 2048] v h (ix2 z q) = v (ix2 z (rowCand q)) :=
  extractStridedSlice_apply ![0, 2048] v h (ix2 z q) (ix2 z (rowCand q)) (fun a => match a with | ⟨0, _⟩ => by (first | rfl | exact (Nat.zero_add _).symm) | ⟨1, _⟩ => by (first | rfl | exact (Nat.zero_add _).symm))

end Cert.KernelIdeal.Layout

end
-- ==== Proof.Body.lean ====
/-
  The kernel body computes the cell, one batch row at a time.

  At a grid point the body loads fourteen blocks: 512 rows of the five batch-indexed arrays, and the whole of every
  weight and bias (a bias as a 1 × n row). Row `p` of what it stores depends only on row `p` of the batch-indexed
  blocks, so everything here is stated for one row `p` of the blocks that is batch row `b` of the arrays (`RowOf`).
  The body's matrix products are sums over the contracted axis (`Layout.matmul_*`); the stacked gate weights are cut by
  slices (`Layout.rows*`, `Layout.cols_*`); a change of float format is the identity on the extended reals; the body
  writes `0 - t` where the cell writes `-t`.
-/
import proofs.«166864_j90941637525969_2_alg».proof.Proof.Gen.KernelIdeal.Skeleton
import proofs.«166864_j90941637525969_2_alg».proof.Proof.Cell
import proofs.«166864_j90941637525969_2_alg».proof.Proof.Layout
import Idealize.ShloMosaic.Lib.IdealHost

noncomputable section

namespace Cert.KernelIdeal.Body

open Cert.KernelIdeal Cert.KernelIdeal.Gen Cert.KernelIdeal.Layout Cert.Cell Idealize.ShloMosaic Idealize.ShloMosaic.ValueIdx

/-- The fourteen blocks the body loads at a grid point, in the order of the kernel's operands. -/
structure Blocks where
  x : Vec Ideal S512x256 .f32
  msk : Vec Ideal S512x256 .f32
  d : Vec Ideal S512x256 .f32
  hp : Vec Ideal S512x1024 .f32
  xp : Vec Ideal S512x256 .f32
  xm : Vec Ideal S1x256 .f32
  Wgx : Vec Ideal S256x256 .bf16
  bgx : Vec Ideal S1x256 .f32
  Wgh : Vec Ideal S1024x256 .bf16
  bgh : Vec Ideal S1x1024 .f32
  Wih : Vec Ideal S3072x512 .bf16
  bih : Vec Ideal S1x3072 .f32
  Whh : Vec Ideal S3072x1024 .bf16
  bhh : Vec Ideal S1x3072 .f32

/-- Row `p` of the batch-indexed blocks is batch row `b` of the arrays; the weight and bias blocks are the whole arrays
    (a bias the array laid out as one row). -/
structure RowOf (A : Args) (b : Fin 8192) (p : Fin 512) (B : Blocks) : Prop where
  x : ∀ k : Fin 256, B.x (ix2 p k) = A.x (ix2 b k)
  msk : ∀ k : Fin 256, B.msk (ix2 p k) = A.msk (ix2 b k)
  d : ∀ k : Fin 256, B.d (ix2 p k) = A.d (ix2 b k)
  hp : ∀ k : Fin 1024, B.hp (ix2 p k) = A.hp (ix2 b k)
  xp : ∀ k : Fin 256, B.xp (ix2 p k) = A.xp (ix2 b k)
  xm : ∀ k : Fin 256, B.xm (ix2 (0 : Fin 1) k) = A.xm (ix1 k)
  Wgx : ∀ j k : Fin 256, B.Wgx (ix2 j k) = A.Wgx (ix2 j k)
  bgx : ∀ k : Fin 256, B.bgx (ix2 (0 : Fin 1) k) = A.bgx (ix1 k)
  Wgh : ∀ (j : Fin 1024) (k : Fin 256), B.Wgh (ix2 j k) = A.Wgh (ix2 j k)
  bgh : ∀ k : Fin 1024, B.bgh (ix2 (0 : Fin 1) k) = A.bgh (ix1 k)
  Wih : ∀ (r : Fin 3072) (k : Fin 512), B.Wih (ix2 r k) = A.Wih (ix2 r k)
  bih : ∀ r : Fin 3072, B.bih (ix2 (0 : Fin 1) r) = A.bih (ix1 r)
  Whh : ∀ (r : Fin 3072) (k : Fin 1024), B.Whh (ix2 r k) = A.Whh (ix2 r k)
  bhh : ∀ r : Fin 3072, B.bhh (ix2 (0 : Fin 1) r) = A.bhh (ix1 r)

/-! ## The transcendental operations and the two constants, at an index -/

theorem exp_apply {s : Shape} {φ : FTy} (v : FVec Ideal s φ) (i : s.Idx) : exp v i = Ideal.exp (v i) := rfl
theorem tanh_apply {s : Shape} {φ : FTy} (v : FVec Ideal s φ) (i : s.Idx) : tanh v i = Ideal.tanh (v i) := rfl
theorem logistic_apply {s : Shape} {φ : FTy} (v : FVec Ideal s φ) (i : s.Idx) : logistic v i = Ideal.logistic (v i) := rfl

/-- The word of `0.0` is zero. -/
theorem zero_word : Scalar.ofBits (F := Ideal) .f32 0x00000000#32 = (0 : EReal) := Ideal.ofBits_zero_f32
/-- The word of `1.0` is one. -/
theorem one_word : Scalar.ofBits (F := Ideal) .f32 0x3F800000#32 = (1 : EReal) := Ideal.ofBits_one_f32

variable {A : Args} {b : Fin 8192} {p : Fin 512} {B : Blocks} (H : RowOf A b p B)
include H

/-! ## The decays, the imputed observation, the decayed hidden state -/

theorem decayIn_body (j : Fin 256) : k0_pay4 B.d B.Wgx B.bgx (ix2 p j) = decayIn A b j := by
  unfold k0_pay4 k0_pay3
  simp only [exp_apply, subf_apply, maximumf_apply, addf_apply, broadcast_apply, shapeCast_self, matmul_ii, rowBcast_i,
    truncf_apply, H.d, H.Wgx, H.bgx, zero_word, zero_sub]
  rfl

theorem decayHid_body (j : Fin 1024) : k0_pay5 B.d B.Wgh B.bgh (ix2 p j) = decayHid A b j := by
  unfold k0_pay5 k0_pay3
  simp only [exp_apply, subf_apply, maximumf_apply, addf_apply, broadcast_apply, shapeCast_self, matmul_hi, rowBcast_h,
    truncf_apply, H.d, H.Wgh, H.bgh, zero_word, zero_sub]
  rfl

theorem imputed_body (j : Fin 256) : k0_pay7 B.msk B.xp (k0_pay2 B.xm) (k0_pay4 B.d B.Wgx B.bgx) (k0_pay6 B.x B.msk) (ix2 p j) = imputed A b j := by
  unfold k0_pay7 k0_pay6 k0_pay2
  simp only [addf_apply, mulf_apply, subf_apply, broadcast_apply, shapeCast_self, rowBcast_i, decayIn_body H,
    H.x, H.msk, H.xp, H.xm, one_word]
  rfl

theorem decayed_body (j : Fin 1024) : k0_pay8 B.hp (k0_pay5 B.d B.Wgh B.bgh) (ix2 p j) = decayed A b j := by
  unfold k0_pay8
  simp only [mulf_apply, decayHid_body H, H.hp]
  rfl

/-! ## The operands of the gate products, at an index (a change of float format is the identity) -/

theorem imputed_bf (k : Fin 256) : k0_pay9 B.msk B.xp (k0_pay2 B.xm) (k0_pay4 B.d B.Wgx B.bgx) (k0_pay6 B.x B.msk) (ix2 p k) = imputed A b k := by
  unfold k0_pay9
  simp only [truncf_apply, imputed_body H]

theorem msk_bf (k : Fin 256) : k0_pay10 B.msk (ix2 p k) = A.msk (ix2 b k) := by
  unfold k0_pay10
  simp only [truncf_apply, H.msk]

theorem decayed_bf (k : Fin 1024) : k0_pay11 B.hp (k0_pay5 B.d B.Wgh B.bgh) (ix2 p k) = decayed A b k := by
  unfold k0_pay11
  simp only [truncf_apply, decayed_body H]

theorem wih_lo (r : Fin 3072) (k : Fin 256) : k0_pay16 B.Wih (ix2 r k) = A.Wih (ix2 r (colLo k)) := by
  unfold k0_pay16 k0_pay12
  simp only [cols_lo, shapeCast_self, H.Wih]

theorem wih_hi (r : Fin 3072) (k : Fin 256) : k0_pay17 B.Wih (ix2 r k) = A.Wih (ix2 r (colHi k)) := by
  unfold k0_pay17 k0_pay12
  simp only [cols_hi, shapeCast_self, H.Wih]

theorem whh_all (r : Fin 3072) (k : Fin 1024) : k0_pay13 B.Whh (ix2 r k) = A.Whh (ix2 r k) := by
  unfold k0_pay13
  simp only [shapeCast_self, H.Whh]

theorem whh_update (j k : Fin 1024) : k0_pay20 B.Whh (ix2 j k) = A.Whh (ix2 (rowUpdate j) k) := by
  unfold k0_pay20
  simp only [rowsUpdate_h, whh_all H]

theorem bih_row (r : Fin 3072) : k0_pay14 B.bih (ix2 (0 : Fin 1) r) = A.bih (ix1 r) := by
  unfold k0_pay14
  simp only [shapeCast_self, H.bih]

theorem bhh_row (r : Fin 3072) : k0_pay15 B.bhh (ix2 (0 : Fin 1) r) = A.bhh (ix1 r) := by
  unfold k0_pay15
  simp only [shapeCast_self, H.bhh]

/-! ## The reset gate, and the update gate's input part -/

theorem reset_body (q : Fin 1024) : k0_pay18 B.msk B.hp B.xp (k0_pay2 B.xm) (k0_pay4 B.d B.Wgx B.bgx) (k0_pay5 B.d B.Wgh B.bgh) (k0_pay6 B.x B.msk) B.Wih B.Whh B.bih B.bhh (ix2 p q) = gate A rowReset b q := by
  unfold k0_pay18
  simp only [logistic_apply, addf_apply, matmul_hi, matmul_hh, rowsReset_i, rowsReset_h, biasReset, rowBcast_h,
    imputed_bf H, msk_bf H, decayed_bf H, wih_lo H, wih_hi H, whh_all H, bih_row H, bhh_row H]
  rfl

theorem updateIn_body (q : Fin 1024) : k0_pay19 B.msk B.xp (k0_pay2 B.xm) (k0_pay4 B.d B.Wgx B.bgx) (k0_pay6 B.x B.msk) B.Wih (ix2 p q)
    = (∑ k : Fin 256, imputed A b k * A.Wih (ix2 (rowUpdate q) (colLo k)))
      + ∑ k : Fin 256, A.msk (ix2 b k) * A.Wih (ix2 (rowUpdate q) (colHi k)) := by
  unfold k0_pay19
  simp only [addf_apply, matmul_hi, rowsUpdate_i, imputed_bf H, msk_bf H, wih_lo H, wih_hi H]

/-! ## The new hidden state -/

omit H in
/-- The last payload, over its operands as variables: given what each operand is at the indices the row reads, the
    stored value at `(p, q)` is the cell's new hidden state. -/
theorem newHidden_of (q : Fin 1024)
    (v43 : FVec Ideal S512x1024 .f32) (v44 v45 : FVec Ideal S512x256 .bf16) (v46 : FVec Ideal S512x1024 .bf16)
    (v50 : FVec Ideal S3072x1024 .bf16) (v52 v54 : FVec Ideal S1x3072 .f32) (v55 v56 : FVec Ideal S3072x256 .bf16)
    (v71 v76 : FVec Ideal S512x1024 .f32) (v77 : FVec Ideal S1024x1024 .bf16)
    (h43 : v43 (ix2 p q) = decayed A b q)
    (h44 : ∀ k : Fin 256, v44 (ix2 p k) = imputed A b k)
    (h45 : ∀ k : Fin 256, v45 (ix2 p k) = A.msk (ix2 b k))
    (h46 : ∀ k : Fin 1024, v46 (ix2 p k) = decayed A b k)
    (h50 : ∀ (r : Fin 3072) (k : Fin 1024), v50 (ix2 r k) = A.Whh (ix2 r k))
    (h52 : ∀ r : Fin 3072, v52 (ix2 (0 : Fin 1) r) = A.bih (ix1 r))
    (h54 : ∀ r : Fin 3072, v54 (ix2 (0 : Fin 1) r) = A.bhh (ix1 r))
    (h55 : ∀ (r : Fin 3072) (k : Fin 256), v55 (ix2 r k) = A.Wih (ix2 r (colLo k)))
    (h56 : ∀ (r : Fin 3072) (k : Fin 256), v56 (ix2 r k) = A.Wih (ix2 r (colHi k)))
    (h71 : v71 (ix2 p q) = gate A rowReset b q)
    (h76 : v76 (ix2 p q) = (∑ k : Fin 256, imputed A b k * A.Wih (ix2 (rowUpdate q) (colLo k)))
      + ∑ k : Fin 256, A.msk (ix2 b k) * A.Wih (ix2 (rowUpdate q) (colHi k)))
    (h77 : ∀ j k : Fin 1024, v77 (ix2 j k) = A.Whh (ix2 (rowUpdate j) k)) :
    k0_pay1 v43 v44 v45 v46 v50 v52 v54 v55 v56 v71 v76 v77 (ix2 p q) = newHidden A b q := by
  unfold k0_pay1
  simp only [addf_apply, mulf_apply, subf_apply, tanh_apply, logistic_apply, broadcast_apply, matmul_hi, matmul_hh,
    rowsCand_i, rowsCand_h, biasUpdate, biasCand, rowBcast_h, h43, h44, h45, h46, h50, h52, h54, h55, h56, h71, h76, h77,
    one_word]
  rfl

/-- What the body stores for the first result at `(p, q)`, over the loaded blocks. -/
theorem newHidden_body (q : Fin 1024) :
    k0_pay1 (k0_pay8 B.hp (k0_pay5 B.d B.Wgh B.bgh)) (k0_pay9 B.msk B.xp (k0_pay2 B.xm) (k0_pay4 B.d B.Wgx B.bgx) (k0_pay6 B.x B.msk)) (k0_pay10 B.msk) (k0_pay11 B.hp (k0_pay5 B.d B.Wgh B.bgh)) (k0_pay13 B.Whh)
      (k0_pay14 B.bih) (k0_pay15 B.bhh) (k0_pay16 B.Wih) (k0_pay17 B.Wih) (k0_pay18 B.msk B.hp B.xp (k0_pay2 B.xm) (k0_pay4 B.d B.Wgx B.bgx) (k0_pay5 B.d B.Wgh B.bgh) (k0_pay6 B.x B.msk) B.Wih B.Whh B.bih B.bhh) (k0_pay19 B.msk B.xp (k0_pay2 B.xm) (k0_pay4 B.d B.Wgx B.bgx) (k0_pay6 B.x B.msk) B.Wih) (k0_pay20 B.Whh) (ix2 p q)
      = newHidden A b q :=
  newHidden_of q _ _ _ _ _ _ _ _ _ _ _ _ (decayed_body H q) (imputed_bf H) (msk_bf H) (decayed_bf H) (whh_all H) (bih_row H)
    (bhh_row H) (wih_lo H) (wih_hi H) (reset_body H q) (updateIn_body H q) (whh_update H)

end Cert.KernelIdeal.Body

end
-- ==== Proof.Arrays.lean ====
/-
  From blocks to the whole result arrays.

  The grid has 16 points; point `t` works on batch rows `512 t … 512 t + 511`: the five batch-indexed inputs and the two
  outputs are staged by blocks of 512 rows at block index `(t, 0)`, every weight and bias whole at block index `(0, 0)`.
  Before the region the host converts the four weight matrices to the narrower float format (the identity on the
  extended reals) and reshapes each bias and the feature means to one row. So row `p` of the blocks at point `t` is batch
  row `512 t + p` of the argument arrays (`rowOf`), what point `t` writes back is block `t` of the cell's two results
  (`wrote_hNew`, `wrote_xTilde`), the 16 blocks cover each result array, and each array ends holding the cell's result.
-/
import proofs.«166864_j90941637525969_2_alg».proof.Proof.Gen.KernelIdeal.Value
import proofs.«166864_j90941637525969_2_alg».proof.Proof.Body
import Idealize.ShloMosaic.Lib.StableHlo.Run

set_option maxRecDepth 16384

noncomputable section

namespace Cert.KernelIdeal.Arrays

open Cert.KernelIdeal Cert.KernelIdeal.Gen Cert.KernelIdeal.Body Cert.Cell
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- A device's fourteen argument arrays, as the cell's arguments. -/
def args (c : Dev nD) : Args where
  x := m ((c.tc : Thread nD τ).loc main_arg0)
  msk := m ((c.tc : Thread nD τ).loc main_arg1)
  d := m ((c.tc : Thread nD τ).loc main_arg2)
  hp := m ((c.tc : Thread nD τ).loc main_arg3)
  xp := m ((c.tc : Thread nD τ).loc main_arg4)
  xm := m ((c.tc : Thread nD τ).loc main_arg5)
  Wgx := m ((c.tc : Thread nD τ).loc main_arg6)
  bgx := m ((c.tc : Thread nD τ).loc main_arg7)
  Wgh := m ((c.tc : Thread nD τ).loc main_arg8)
  bgh := m ((c.tc : Thread nD τ).loc main_arg9)
  Wih := m ((c.tc : Thread nD τ).loc main_arg10)
  bih := m ((c.tc : Thread nD τ).loc main_arg11)
  Whh := m ((c.tc : Thread nD τ).loc main_arg12)
  bhh := m ((c.tc : Thread nD τ).loc main_arg13)

/-- The fourteen input blocks at grid point `t`. -/
abbrev blocksAt (c : Dev nD) (t : Fin cfg0.N) : Blocks :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t⟩

/-- Batch row `512 t + p`: row `p` of point `t`'s blocks. -/
def rowAt (t : Fin cfg0.N) (p : Fin 512) : Fin 8192 :=
  ⟨t.val * 512 + p.val, by have := t.isLt; have hN : cfg0.N = 16 := N_0; have := p.isLt; omega⟩

theorem origin : (![0, 0] : Fin 2 → Nat) = fun _ => 0 := funext fun a => by fin_cases a <;> rfl

/-! ## The windows' block indices over the grid, decided -/

theorem at_point0 : ∀ t : Fin cfg0.N, win0_0.index t (0 : Fin 2) = t.val ∧ win0_0.index t (1 : Fin 2) = 0 :=
  (by decide +kernel : ∀ t : Fin grid0.N, _)
theorem at_point1 : ∀ t : Fin cfg0.N, win0_1.index t (0 : Fin 2) = t.val ∧ win0_1.index t (1 : Fin 2) = 0 :=
  (by decide +kernel : ∀ t : Fin grid0.N, _)
theorem at_point2 : ∀ t : Fin cfg0.N, win0_2.index t (0 : Fin 2) = t.val ∧ win0_2.index t (1 : Fin 2) = 0 :=
  (by decide +kernel : ∀ t : Fin grid0.N, _)
theorem at_point3 : ∀ t : Fin cfg0.N, win0_3.index t (0 : Fin 2) = t.val ∧ win0_3.index t (1 : Fin 2) = 0 :=
  (by decide +kernel : ∀ t : Fin grid0.N, _)
theorem at_point4 : ∀ t : Fin cfg0.N, win0_4.index t (0 : Fin 2) = t.val ∧ win0_4.index t (1 : Fin 2) = 0 :=
  (by decide +kernel : ∀ t : Fin grid0.N, _)
theorem at_point14 : ∀ t : Fin cfg0.N, win0_14.index t (0 : Fin 2) = t.val ∧ win0_14.index t (1 : Fin 2) = 0 :=
  (by decide +kernel : ∀ t : Fin grid0.N, _)
theorem at_point15 : ∀ t : Fin cfg0.N, win0_15.index t (0 : Fin 2) = t.val ∧ win0_15.index t (1 : Fin 2) = 0 :=
  (by decide +kernel : ∀ t : Fin grid0.N, _)
theorem at_origin5 : ∀ t : Fin cfg0.N, win0_5.index t (0 : Fin 2) = 0 ∧ win0_5.index t (1 : Fin 2) = 0 :=
  (by decide +kernel : ∀ t : Fin grid0.N, _)
theorem at_origin6 : ∀ t : Fin cfg0.N, win0_6.index t (0 : Fin 2) = 0 ∧ win0_6.index t (1 : Fin 2) = 0 :=
  (by decide +kernel : ∀ t : Fin grid0.N, _)
theorem at_origin7 : ∀ t : Fin cfg0.N, win0_7.index t (0 : Fin 2) = 0 ∧ win0_7.index t (1 : Fin 2) = 0 :=
  (by decide +kernel : ∀ t : Fin grid0.N, _)
theorem at_origin8 : ∀ t : Fin cfg0.N, win0_8.index t (0 : Fin 2) = 0 ∧ win0_8.index t (1 : Fin 2) = 0 :=
  (by decide +kernel : ∀ t : Fin grid0.N, _)
theorem at_origin9 : ∀ t : Fin cfg0.N, win0_9.index t (0 : Fin 2) = 0 ∧ win0_9.index t (1 : Fin 2) = 0 :=
  (by decide +kernel : ∀ t : Fin grid0.N, _)
theorem at_origin10 : ∀ t : Fin cfg0.N, win0_10.index t (0 : Fin 2) = 0 ∧ win0_10.index t (1 : Fin 2) = 0 :=
  (by decide +kernel : ∀ t : Fin grid0.N, _)
theorem at_origin11 : ∀ t : Fin cfg0.N, win0_11.index t (0 : Fin 2) = 0 ∧ win0_11.index t (1 : Fin 2) = 0 :=
  (by decide +kernel : ∀ t : Fin grid0.N, _)
theorem at_origin12 : ∀ t : Fin cfg0.N, win0_12.index t (0 : Fin 2) = 0 ∧ win0_12.index t (1 : Fin 2) = 0 :=
  (by decide +kernel : ∀ t : Fin grid0.N, _)
theorem at_origin13 : ∀ t : Fin cfg0.N, win0_13.index t (0 : Fin 2) = 0 ∧ win0_13.index t (1 : Fin 2) = 0 :=
  (by decide +kernel : ∀ t : Fin grid0.N, _)

/-! ## Where an index of a block sits in its array -/

theorem emb0 (t : Fin cfg0.N) (p : Fin 512) (k : Fin 256) :
    ((cfg0.win 0).blk t).view.emb (ix2 p k) = ix2 (rowAt t p) k := by
  funext a; apply Fin.ext
  match a with
  | ⟨0, _⟩ => show win0_0.index t (0 : Fin 2) * 512 + 1 * p.val = t.val * 512 + p.val; rw [(at_point0 t).1]; omega
  | ⟨1, _⟩ => show win0_0.index t (1 : Fin 2) * 256 + 1 * k.val = k.val; rw [(at_point0 t).2]; omega
theorem emb1 (t : Fin cfg0.N) (p : Fin 512) (k : Fin 256) :
    ((cfg0.win 1).blk t).view.emb (ix2 p k) = ix2 (rowAt t p) k := by
  funext a; apply Fin.ext
  match a with
  | ⟨0, _⟩ => show win0_1.index t (0 : Fin 2) * 512 + 1 * p.val = t.val * 512 + p.val; rw [(at_point1 t).1]; omega
  | ⟨1, _⟩ => show win0_1.index t (1 : Fin 2) * 256 + 1 * k.val = k.val; rw [(at_point1 t).2]; omega
theorem emb2 (t : Fin cfg0.N) (p : Fin 512) (k : Fin 256) :
    ((cfg0.win 2).blk t).view.emb (ix2 p k) = ix2 (rowAt t p) k := by
  funext a; apply Fin.ext
  match a with
  | ⟨0, _⟩ => show win0_2.index t (0 : Fin 2) * 512 + 1 * p.val = t.val * 512 + p.val; rw [(at_point2 t).1]; omega
  | ⟨1, _⟩ => show win0_2.index t (1 : Fin 2) * 256 + 1 * k.val = k.val; rw [(at_point2 t).2]; omega
theorem emb3 (t : Fin cfg0.N) (p : Fin 512) (k : Fin 1024) :
    ((cfg0.win 3).blk t).view.emb (ix2 p k) = ix2 (rowAt t p) k := by
  funext a; apply Fin.ext
  match a with
  | ⟨0, _⟩ => show win0_3.index t (0 : Fin 2) * 512 + 1 * p.val = t.val * 512 + p.val; rw [(at_point3 t).1]; omega
  | ⟨1, _⟩ => show win0_3.index t (1 : Fin 2) * 1024 + 1 * k.val = k.val; rw [(at_point3 t).2]; omega
theorem emb4 (t : Fin cfg0.N) (p : Fin 512) (k : Fin 256) :
    ((cfg0.win 4).blk t).view.emb (ix2 p k) = ix2 (rowAt t p) k := by
  funext a; apply Fin.ext
  match a with
  | ⟨0, _⟩ => show win0_4.index t (0 : Fin 2) * 512 + 1 * p.val = t.val * 512 + p.val; rw [(at_point4 t).1]; omega
  | ⟨1, _⟩ => show win0_4.index t (1 : Fin 2) * 256 + 1 * k.val = k.val; rw [(at_point4 t).2]; omega
theorem emb14 (t : Fin cfg0.N) (p : Fin 512) (k : Fin 1024) :
    ((cfg0.win 14).blk t).view.emb (ix2 p k) = ix2 (rowAt t p) k := by
  funext a; apply Fin.ext
  match a with
  | ⟨0, _⟩ => show win0_14.index t (0 : Fin 2) * 512 + 1 * p.val = t.val * 512 + p.val; rw [(at_point14 t).1]; omega
  | ⟨1, _⟩ => show win0_14.index t (1 : Fin 2) * 1024 + 1 * k.val = k.val; rw [(at_point14 t).2]; omega
theorem emb15 (t : Fin cfg0.N) (p : Fin 512) (k : Fin 256) :
    ((cfg0.win 15).blk t).view.emb (ix2 p k) = ix2 (rowAt t p) k := by
  funext a; apply Fin.ext
  match a with
  | ⟨0, _⟩ => show win0_15.index t (0 : Fin 2) * 512 + 1 * p.val = t.val * 512 + p.val; rw [(at_point15 t).1]; omega
  | ⟨1, _⟩ => show win0_15.index t (1 : Fin 2) * 256 + 1 * k.val = k.val; rw [(at_point15 t).2]; omega
theorem emb5 (t : Fin cfg0.N) (r : Fin 1) (k : Fin 256) :
    ((cfg0.win 5).blk t).view.emb (ix2 r k) = ix2 r k := by
  funext a; apply Fin.ext
  match a with
  | ⟨0, _⟩ => show win0_5.index t (0 : Fin 2) * 1 + 1 * r.val = r.val; rw [(at_origin5 t).1]; omega
  | ⟨1, _⟩ => show win0_5.index t (1 : Fin 2) * 256 + 1 * k.val = k.val; rw [(at_origin5 t).2]; omega
theorem emb6 (t : Fin cfg0.N) (r : Fin 256) (k : Fin 256) :
    ((cfg0.win 6).blk t).view.emb (ix2 r k) = ix2 r k := by
  funext a; apply Fin.ext
  match a with
  | ⟨0, _⟩ => show win0_6.index t (0 : Fin 2) * 256 + 1 * r.val = r.val; rw [(at_origin6 t).1]; omega
  | ⟨1, _⟩ => show win0_6.index t (1 : Fin 2) * 256 + 1 * k.val = k.val; rw [(at_origin6 t).2]; omega
theorem emb7 (t : Fin cfg0.N) (r : Fin 1) (k : Fin 256) :
    ((cfg0.win 7).blk t).view.emb (ix2 r k) = ix2 r k := by
  funext a; apply Fin.ext
  match a with
  | ⟨0, _⟩ => show win0_7.index t (0 : Fin 2) * 1 + 1 * r.val = r.val; rw [(at_origin7 t).1]; omega
  | ⟨1, _⟩ => show win0_7.index t (1 : Fin 2) * 256 + 1 * k.val = k.val; rw [(at_origin7 t).2]; omega
theorem emb8 (t : Fin cfg0.N) (r : Fin 1024) (k : Fin 256) :
    ((cfg0.win 8).blk t).view.emb (ix2 r k) = ix2 r k := by
  funext a; apply Fin.ext
  match a with
  | ⟨0, _⟩ => show win0_8.index t (0 : Fin 2) * 1024 + 1 * r.val = r.val; rw [(at_origin8 t).1]; omega
  | ⟨1, _⟩ => show win0_8.index t (1 : Fin 2) * 256 + 1 * k.val = k.val; rw [(at_origin8 t).2]; omega
theorem emb9 (t : Fin cfg0.N) (r : Fin 1) (k : Fin 1024) :
    ((cfg0.win 9).blk t).view.emb (ix2 r k) = ix2 r k := by
  funext a; apply Fin.ext
  match a with
  | ⟨0, _⟩ => show win0_9.index t (0 : Fin 2) * 1 + 1 * r.val = r.val; rw [(at_origin9 t).1]; omega
  | ⟨1, _⟩ => show win0_9.index t (1 : Fin 2) * 1024 + 1 * k.val = k.val; rw [(at_origin9 t).2]; omega
theorem emb10 (t : Fin cfg0.N) (r : Fin 3072) (k : Fin 512) :
    ((cfg0.win 10).blk t).view.emb (ix2 r k) = ix2 r k := by
  funext a; apply Fin.ext
  match a with
  | ⟨0, _⟩ => show win0_10.index t (0 : Fin 2) * 3072 + 1 * r.val = r.val; rw [(at_origin10 t).1]; omega
  | ⟨1, _⟩ => show win0_10.index t (1 : Fin 2) * 512 + 1 * k.val = k.val; rw [(at_origin10 t).2]; omega
theorem emb11 (t : Fin cfg0.N) (r : Fin 1) (k : Fin 3072) :
    ((cfg0.win 11).blk t).view.emb (ix2 r k) = ix2 r k := by
  funext a; apply Fin.ext
  match a with
  | ⟨0, _⟩ => show win0_11.index t (0 : Fin 2) * 1 + 1 * r.val = r.val; rw [(at_origin11 t).1]; omega
  | ⟨1, _⟩ => show win0_11.index t (1 : Fin 2) * 3072 + 1 * k.val = k.val; rw [(at_origin11 t).2]; omega
theorem emb12 (t : Fin cfg0.N) (r : Fin 3072) (k : Fin 1024) :
    ((cfg0.win 12).blk t).view.emb (ix2 r k) = ix2 r k := by
  funext a; apply Fin.ext
  match a with
  | ⟨0, _⟩ => show win0_12.index t (0 : Fin 2) * 3072 + 1 * r.val = r.val; rw [(at_origin12 t).1]; omega
  | ⟨1, _⟩ => show win0_12.index t (1 : Fin 2) * 1024 + 1 * k.val = k.val; rw [(at_origin12 t).2]; omega
theorem emb13 (t : Fin cfg0.N) (r : Fin 1) (k : Fin 3072) :
    ((cfg0.win 13).blk t).view.emb (ix2 r k) = ix2 r k := by
  funext a; apply Fin.ext
  match a with
  | ⟨0, _⟩ => show win0_13.index t (0 : Fin 2) * 1 + 1 * r.val = r.val; rw [(at_origin13 t).1]; omega
  | ⟨1, _⟩ => show win0_13.index t (1 : Fin 2) * 3072 + 1 * k.val = k.val; rw [(at_origin13 t).2]; omega

/-! ## What the host operations before the region left in the weight and bias windows' arrays -/

/-- The region finds `Wgx` converted to the narrower float format: at the ideal values, the argument itself. -/
theorem entry_Wgx (c : Dev nD) (i : S256x256.Idx) : (V m c main_v0 : S256x256.Idx → EReal) i = m ((c.tc : Thread nD τ).loc main_arg6) i := by
  have e : (V m c main_v0 : S256x256.Idx → EReal) = truncf (F := Ideal) (s := S256x256) .bf16 (m ((c.tc : Thread nD τ).loc main_arg6)) bitsLt_bf16_f32 := by
    dsimp only [Gen.V, Gen.hostOps0]; after_results
  rw [e]; rfl
/-- The region finds `Wgh` converted to the narrower float format: at the ideal values, the argument itself. -/
theorem entry_Wgh (c : Dev nD) (i : S1024x256.Idx) : (V m c main_v1 : S1024x256.Idx → EReal) i = m ((c.tc : Thread nD τ).loc main_arg8) i := by
  have e : (V m c main_v1 : S1024x256.Idx → EReal) = truncf (F := Ideal) (s := S1024x256) .bf16 (m ((c.tc : Thread nD τ).loc main_arg8)) bitsLt_bf16_f32 := by
    dsimp only [Gen.V, Gen.hostOps0]; after_results
  rw [e]; rfl
/-- The region finds `Wih` converted to the narrower float format: at the ideal values, the argument itself. -/
theorem entry_Wih (c : Dev nD) (i : S3072x512.Idx) : (V m c main_v2 : S3072x512.Idx → EReal) i = m ((c.tc : Thread nD τ).loc main_arg10) i := by
  have e : (V m c main_v2 : S3072x512.Idx → EReal) = truncf (F := Ideal) (s := S3072x512) .bf16 (m ((c.tc : Thread nD τ).loc main_arg10)) bitsLt_bf16_f32 := by
    dsimp only [Gen.V, Gen.hostOps0]; after_results
  rw [e]; rfl
/-- The region finds `Whh` converted to the narrower float format: at the ideal values, the argument itself. -/
theorem entry_Whh (c : Dev nD) (i : S3072x1024.Idx) : (V m c main_v3 : S3072x1024.Idx → EReal) i = m ((c.tc : Thread nD τ).loc main_arg12) i := by
  have e : (V m c main_v3 : S3072x1024.Idx → EReal) = truncf (F := Ideal) (s := S3072x1024) .bf16 (m ((c.tc : Thread nD τ).loc main_arg12)) bitsLt_bf16_f32 := by
    dsimp only [Gen.V, Gen.hostOps0]; after_results
  rw [e]; rfl
/-- The region finds `bgx` reshaped to one row: entry `(0, k)` is the argument's entry `k`. -/
theorem entry_bgx (c : Dev nD) (k : Fin 256) : (V m c main_v4 : S1x256.Idx → EReal) (ix2 (0 : Fin 1) k) = m ((c.tc : Thread nD τ).loc main_arg7) (ix1 k) := by
  have e : (V m c main_v4 : S1x256.Idx → EReal) = shapeCast S1x256 (m ((c.tc : Thread nD τ).loc main_arg7)) shapeCasts_S256_S1x256 := by
    dsimp only [Gen.V, Gen.hostOps0]; after_results; rfl
  rw [e]
  refine shapeCast_apply _ _ (ix2 (0 : Fin 1) k) (ix1 k) ?_
  rw [Shape.rowMajor_val_one, Shape.rowMajor_val_two]
  show k.val = 0 * 256 + k.val
  omega
/-- The region finds `bgh` reshaped to one row: entry `(0, k)` is the argument's entry `k`. -/
theorem entry_bgh (c : Dev nD) (k : Fin 1024) : (V m c main_v5 : S1x1024.Idx → EReal) (ix2 (0 : Fin 1) k) = m ((c.tc : Thread nD τ).loc main_arg9) (ix1 k) := by
  have e : (V m c main_v5 : S1x1024.Idx → EReal) = shapeCast S1x1024 (m ((c.tc : Thread nD τ).loc main_arg9)) shapeCasts_S1024_S1x1024 := by
    dsimp only [Gen.V, Gen.hostOps0]; after_results; rfl
  rw [e]
  refine shapeCast_apply _ _ (ix2 (0 : Fin 1) k) (ix1 k) ?_
  rw [Shape.rowMajor_val_one, Shape.rowMajor_val_two]
  show k.val = 0 * 1024 + k.val
  omega
/-- The region finds `bih` reshaped to one row: entry `(0, k)` is the argument's entry `k`. -/
theorem entry_bih (c : Dev nD) (k : Fin 3072) : (V m c main_v6 : S1x3072.Idx → EReal) (ix2 (0 : Fin 1) k) = m ((c.tc : Thread nD τ).loc main_arg11) (ix1 k) := by
  have e : (V m c main_v6 : S1x3072.Idx → EReal) = shapeCast S1x3072 (m ((c.tc : Thread nD τ).loc main_arg11)) shapeCasts_S3072_S1x3072 := by
    dsimp only [Gen.V, Gen.hostOps0]; after_results; rfl
  rw [e]
  refine shapeCast_apply _ _ (ix2 (0 : Fin 1) k) (ix1 k) ?_
  rw [Shape.rowMajor_val_one, Shape.rowMajor_val_two]
  show k.val = 0 * 3072 + k.val
  omega
/-- The region finds `bhh` reshaped to one row: entry `(0, k)` is the argument's entry `k`. -/
theorem entry_bhh (c : Dev nD) (k : Fin 3072) : (V m c main_v7 : S1x3072.Idx → EReal) (ix2 (0 : Fin 1) k) = m ((c.tc : Thread nD τ).loc main_arg13) (ix1 k) := by
  have e : (V m c main_v7 : S1x3072.Idx → EReal) = shapeCast S1x3072 (m ((c.tc : Thread nD τ).loc main_arg13)) shapeCasts_S3072_S1x3072 := by
    dsimp only [Gen.V, Gen.hostOps0]; after_results; rfl
  rw [e]
  refine shapeCast_apply _ _ (ix2 (0 : Fin 1) k) (ix1 k) ?_
  rw [Shape.rowMajor_val_one, Shape.rowMajor_val_two]
  show k.val = 0 * 3072 + k.val
  omega
/-- The region finds `xm` reshaped to one row: entry `(0, k)` is the argument's entry `k`. -/
theorem entry_xm (c : Dev nD) (k : Fin 256) : (V m c main_v8 : S1x256.Idx → EReal) (ix2 (0 : Fin 1) k) = m ((c.tc : Thread nD τ).loc main_arg5) (ix1 k) := by
  have e : (V m c main_v8 : S1x256.Idx → EReal) = shapeCast S1x256 (m ((c.tc : Thread nD τ).loc main_arg5)) shapeCasts_S256_S1x256 := by
    dsimp only [Gen.V, Gen.hostOps0]; after_results; rfl
  rw [e]
  refine shapeCast_apply _ _ (ix2 (0 : Fin 1) k) (ix1 k) ?_
  rw [Shape.rowMajor_val_one, Shape.rowMajor_val_two]
  show k.val = 0 * 256 + k.val
  omega

/-! ## Row `p` of the blocks at point `t` is batch row `512 t + p` of the arguments -/

theorem rowOf (c : Dev nD) (t : Fin cfg0.N) (p : Fin 512) : RowOf (args m c) (rowAt t p) p (blocksAt m c t) where
  x := fun k => by
    show V m c main_arg0 (((cfg0.win 0).blk t).view.emb (ix2 p k)) = m ((c.tc : Thread nD τ).loc main_arg0) (ix2 (rowAt t p) k)
    rw [emb0, V_main_arg0]
  msk := fun k => by
    show V m c main_arg1 (((cfg0.win 1).blk t).view.emb (ix2 p k)) = m ((c.tc : Thread nD τ).loc main_arg1) (ix2 (rowAt t p) k)
    rw [emb1, V_main_arg1]
  d := fun k => by
    show V m c main_arg2 (((cfg0.win 2).blk t).view.emb (ix2 p k)) = m ((c.tc : Thread nD τ).loc main_arg2) (ix2 (rowAt t p) k)
    rw [emb2, V_main_arg2]
  hp := fun k => by
    show V m c main_arg3 (((cfg0.win 3).blk t).view.emb (ix2 p k)) = m ((c.tc : Thread nD τ).loc main_arg3) (ix2 (rowAt t p) k)
    rw [emb3, V_main_arg3]
  xp := fun k => by
    show V m c main_arg4 (((cfg0.win 4).blk t).view.emb (ix2 p k)) = m ((c.tc : Thread nD τ).loc main_arg4) (ix2 (rowAt t p) k)
    rw [emb4, V_main_arg4]
  xm := fun k => by
    show V m c main_v8 (((cfg0.win 5).blk t).view.emb (ix2 (0 : Fin 1) k)) = m ((c.tc : Thread nD τ).loc main_arg5) (ix1 k)
    rw [emb5]; exact entry_xm m c k
  Wgx := fun j k => by
    show V m c main_v0 (((cfg0.win 6).blk t).view.emb (ix2 j k)) = m ((c.tc : Thread nD τ).loc main_arg6) (ix2 j k)
    rw [emb6]; exact entry_Wgx m c (ix2 j k)
  bgx := fun k => by
    show V m c main_v4 (((cfg0.win 7).blk t).view.emb (ix2 (0 : Fin 1) k)) = m ((c.tc : Thread nD τ).loc main_arg7) (ix1 k)
    rw [emb7]; exact entry_bgx m c k
  Wgh := fun j k => by
    show V m c main_v1 (((cfg0.win 8).blk t).view.emb (ix2 j k)) = m ((c.tc : Thread nD τ).loc main_arg8) (ix2 j k)
    rw [emb8]; exact entry_Wgh m c (ix2 j k)
  bgh := fun k => by
    show V m c main_v5 (((cfg0.win 9).blk t).view.emb (ix2 (0 : Fin 1) k)) = m ((c.tc : Thread nD τ).loc main_arg9) (ix1 k)
    rw [emb9]; exact entry_bgh m c k
  Wih := fun r k => by
    show V m c main_v2 (((cfg0.win 10).blk t).view.emb (ix2 r k)) = m ((c.tc : Thread nD τ).loc main_arg10) (ix2 r k)
    rw [emb10]; exact entry_Wih m c (ix2 r k)
  bih := fun r => by
    show V m c main_v6 (((cfg0.win 11).blk t).view.emb (ix2 (0 : Fin 1) r)) = m ((c.tc : Thread nD τ).loc main_arg11) (ix1 r)
    rw [emb11]; exact entry_bih m c r
  Whh := fun r k => by
    show V m c main_v3 (((cfg0.win 12).blk t).view.emb (ix2 r k)) = m ((c.tc : Thread nD τ).loc main_arg12) (ix2 r k)
    rw [emb12]; exact entry_Whh m c (ix2 r k)
  bhh := fun r => by
    show V m c main_v7 (((cfg0.win 13).blk t).view.emb (ix2 (0 : Fin 1) r)) = m ((c.tc : Thread nD τ).loc main_arg13) (ix1 r)
    rw [emb13]; exact entry_bhh m c r

/-! ## What a point writes back -/

/-- A block whose row `p` holds the new hidden state of batch row `512 t + p`, read through point `t`'s block of the
    first result, is block `t` of the new hidden state. -/
theorem block_hNew (c : Dev nD) (t : Fin cfg0.N) (X : Vec Ideal S512x1024 .f32)
    (hX : ∀ (p : Fin 512) (q : Fin 1024), X (ix2 p q) = newHidden (args m c) (rowAt t p) q) :
    (cfg0.win 14).cut (grid0.coords t) X = ((cfg0.win 14).blk t).view.read (Elt Ideal) (hNew (args m c)) := by
  funext y
  obtain ⟨p, q, rfl⟩ : ∃ (p : Fin 512) (q : Fin 1024), y = ix2 p q := ⟨y 0, y 1, eq_ix2 y⟩
  show X (ix2 p q) = hNew (args m c) (((cfg0.win 14).blk t).view.emb (ix2 p q))
  rw [hX, emb14]
  rfl

set_option maxHeartbeats 1000000 in
/-- Point `t` writes back block `t` of the new hidden state. -/
theorem wrote_hNew (c : Dev nD) (t : Fin cfg0.N) :
    (dats m 0 c).flushed 14 t = ((cfg0.win 14).blk t).view.read (Elt Ideal) (hNew (args m c)) := by
  rw [Value.flushed14]
  refine block_hNew m c t _ (fun p q => ?_)
  unfold out0_14
  rw [View.canon_unit_zero origin]
  simp only [View.ld_unit_zero (S := S512x256) origin, View.ld_unit_zero (S := S512x1024) origin, View.ld_unit_zero (S := S1x256) origin, View.ld_unit_zero (S := S256x256) origin, View.ld_unit_zero (S := S1024x256) origin, View.ld_unit_zero (S := S1x1024) origin, View.ld_unit_zero (S := S3072x512) origin, View.ld_unit_zero (S := S3072x1024) origin, View.ld_unit_zero (S := S1x3072) origin]
  exact newHidden_body (B := blocksAt m c t) (rowOf m c t p) q

/-- Point `t` writes back block `t` of the imputed observation. -/
theorem wrote_xTilde (c : Dev nD) (t : Fin cfg0.N) :
    (dats m 0 c).flushed 15 t = ((cfg0.win 15).blk t).view.read (Elt Ideal) (xTilde (args m c)) := by
  rw [Value.flushed15]
  unfold out0_15
  rw [View.canon_unit_zero origin]
  simp only [View.ld_unit_zero (S := S512x256) origin, View.ld_unit_zero (S := S512x1024) origin, View.ld_unit_zero (S := S1x256) origin, View.ld_unit_zero (S := S256x256) origin, View.ld_unit_zero (S := S1024x256) origin, View.ld_unit_zero (S := S1x1024) origin, View.ld_unit_zero (S := S3072x512) origin, View.ld_unit_zero (S := S3072x1024) origin, View.ld_unit_zero (S := S1x3072) origin]
  funext y
  obtain ⟨p, q, rfl⟩ : ∃ (p : Fin 512) (q : Fin 256), y = ix2 p q := ⟨y 0, y 1, eq_ix2 y⟩
  refine (imputed_body (B := blocksAt m c t) (rowOf m c t p) q).trans ?_
  show imputed (args m c) (rowAt t p) q = xTilde (args m c) (((cfg0.win 15).blk t).view.emb (ix2 p q))
  rw [emb15]
  rfl

/-! ## The sixteen blocks cover each result array -/

theorem mem_block14 (t : Fin cfg0.N) (i : S8192x1024.Idx) :
    i ∈ ((cfg0.win 14).blk t).view.set ↔ ∀ a : Fin 2, win0_14.index t a * S512x1024.size a ≤ (i a).val ∧ (i a).val < win0_14.index t a * S512x1024.size a + S512x1024.size a := by
  show i ∈ ((View.whole main_v9_0).slice (win0_14.rect t)).set ↔ _
  rw [View.set_slice_whole, Rect.mem_set_unit]
  exact Iff.rfl

theorem mem_block15 (t : Fin cfg0.N) (i : S8192x256.Idx) :
    i ∈ ((cfg0.win 15).blk t).view.set ↔ ∀ a : Fin 2, win0_15.index t a * S512x256.size a ≤ (i a).val ∧ (i a).val < win0_15.index t a * S512x256.size a + S512x256.size a := by
  show i ∈ ((View.whole main_v9_1).slice (win0_15.rect t)).set ↔ _
  rw [View.set_slice_whole, Rect.mem_set_unit]
  exact Iff.rfl

/-- Row `r` lies in the block of point `r / 512`. -/
theorem covered14 (i : S8192x1024.Idx) : ∃ t : Fin cfg0.N, (cfg0.win 14).flush t = true ∧ i ∈ ((cfg0.win 14).blk t).view.set := by
  have h0 : (i 0).val < 8192 := (i 0).isLt
  have h1 : (i 1).val < 1024 := (i 1).isLt
  have hN : cfg0.N = 16 := N_0
  obtain ⟨t, ht⟩ : ∃ t : Fin cfg0.N, t.val = (i 0).val / 512 := ⟨⟨(i 0).val / 512, by omega⟩, rfl⟩
  refine ⟨t, flush0_14 t, ?_⟩
  rw [mem_block14]
  obtain ⟨e0, e1⟩ := at_point14 t
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 1024 ≤ (i 1).val ∧ (i 1).val < win0_14.index t (1 : Fin 2) * 1024 + 1024; omega

theorem covered15 (i : S8192x256.Idx) : ∃ t : Fin cfg0.N, (cfg0.win 15).flush t = true ∧ i ∈ ((cfg0.win 15).blk t).view.set := by
  have h0 : (i 0).val < 8192 := (i 0).isLt
  have h1 : (i 1).val < 256 := (i 1).isLt
  have hN : cfg0.N = 16 := N_0
  obtain ⟨t, ht⟩ : ∃ t : Fin cfg0.N, t.val = (i 0).val / 512 := ⟨⟨(i 0).val / 512, by omega⟩, rfl⟩
  refine ⟨t, flush0_15 t, ?_⟩
  rw [mem_block15]
  obtain ⟨e0, e1⟩ := at_point15 t
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-! ## The result arrays after the run -/

theorem final_hNew (c : Dev nD) : (dats m 0 c).arrAt 14 cfg0.N = hNew (args m c) :=
  (dats m 0 c).arrAt_eq_of_cover 14 (hNew (args m c)) (fun t _ => wrote_hNew m c t) covered14

theorem final_xTilde (c : Dev nD) : (dats m 0 c).arrAt 15 cfg0.N = xTilde (args m c) :=
  (dats m 0 c).arrAt_eq_of_cover 15 (xTilde (args m c)) (fun t _ => wrote_xTilde m c t) covered15

/-- The kernel's run: every execution ends with the two result arrays at the cell's results of the arguments, the
    arguments unchanged. -/
theorem run : θ_run defs (onTc (τ := τ) (main (F := Ideal))) ⟨m, fun _ => 0, ρ⟩ fun r => ∀ c : Dev nD,
      r.2.mem ((c.tc : Thread nD τ).loc main_v9_0) = hNew (args m c)
      ∧ r.2.mem ((c.tc : Thread nD τ).loc main_v9_1) = xTilde (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (final_hNew m c), (h c).2.1.trans (final_xTilde m c), (h c).2.2⟩)
    (Value.run_blocks m ρ)

end Cert.KernelIdeal.Arrays

end
-- ==== Proof.lean ====
/-
  A decay-gated recurrent cell: the kernel's two results are its reference's, as extended reals.

  Both programs compute, for every batch row `b`, the input and hidden decays `exp (-(max (d · W + bias) 0))`, the imputed
  observation `msk · x + (1 - msk) · (decay · xp + (1 - decay) · xm)`, the decayed hidden state, the reset and update
  gates (logistic), the candidate (tanh) and the new hidden state `(1 - update) · candidate + update · decayed`
  (`Cert.Cell`). The reference (`RefCell`) joins the imputed observation and the mask into 512 columns and makes one
  product with the 3072 × 512 gate weights, and cuts the three gates out of the result; the kernel (`Body`, `Arrays`)
  works on 512 batch rows per grid point, cuts the gate weights first and makes one product per gate and per half of the
  columns. The two agree because a sum over 512 columns is the sum over the first 256 plus the sum over the last 256;
  every other step is the same operation on the same operands, read at an index. No step needs the inputs finite.
  The kernel's idealization rewrites nothing, so it preserves the kernel trivially; the three frames are the generated
  ones.
-/
import proofs.«166864_j90941637525969_2_alg».proof.Defs
import proofs.«166864_j90941637525969_2_alg».proof.Proof.Gen.Kernel
import proofs.«166864_j90941637525969_2_alg».proof.Proof.Gen.Kernel.Skeleton
import proofs.«166864_j90941637525969_2_alg».proof.Proof.Gen.Kernel.Launch
import proofs.«166864_j90941637525969_2_alg».proof.Proof.Gen.Kernel.Points
import proofs.«166864_j90941637525969_2_alg».proof.Proof.Gen.Kernel.Frame
import proofs.«166864_j90941637525969_2_alg».proof.Proof.Gen.KernelIdeal
import proofs.«166864_j90941637525969_2_alg».proof.Proof.Gen.KernelIdeal.Skeleton
import proofs.«166864_j90941637525969_2_alg».proof.Proof.Gen.KernelIdeal.Launch
import proofs.«166864_j90941637525969_2_alg».proof.Proof.Gen.KernelIdeal.Points
import proofs.«166864_j90941637525969_2_alg».proof.Proof.Gen.KernelIdeal.Frame
import proofs.«166864_j90941637525969_2_alg».proof.Proof.Gen.ReferenceIdeal
import proofs.«166864_j90941637525969_2_alg».proof.Proof.Gen.Pre_finite_inputs
import proofs.«166864_j90941637525969_2_alg».proof.Proof.Gen.KernelIdeal.Value
import proofs.«166864_j90941637525969_2_alg».proof.Proof.Gen.ReferenceIdeal.Run
import proofs.«166864_j90941637525969_2_alg».proof.Proof.Gen.ReferenceIdeal.Read
import proofs.«166864_j90941637525969_2_alg».proof.Proof.RefCell
import proofs.«166864_j90941637525969_2_alg».proof.Proof.Arrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the fourteen arguments, the kernel ends with the cell's new hidden state and imputed
    observation of its arguments (`Arrays.run`), and the reference with the same two functions of its own
    (`RefCell.hNew_eq`, `RefCell.xTilde_eq`). -/
theorem algebraic : Cert.algebraic_KernelIdeal_ReferenceIdeal := by
  intro m ρ m' ρ' _ hagree
  refine ⟨fun c => Cert.Cell.hNew (Cert.KernelIdeal.Arrays.args m c),
    fun c => Cert.Cell.xTilde (Cert.KernelIdeal.Arrays.args m c), Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13⟩ := hagree c
    rw [Cert.ReferenceIdeal.Read.val_main_v67_eq, e0, e1, e2, e3, e4, e5, e6, e7, e8, e9, e10, e11, e12, e13]
    exact Cert.ReferenceIdeal.RefCell.hNew_eq (Cert.KernelIdeal.Arrays.args m c)
  · obtain ⟨e0, e1, e2, e3, e4, e5, e6, e7, e8, e9, e10, e11, e12, e13⟩ := hagree c
    rw [e0, e1, e2, e4, e5, e6, e7]
    exact (Cert.ReferenceIdeal.Read.val_main_v27_eq _ _ _ _ _ _ _).trans
      (Cert.ReferenceIdeal.RefCell.xTilde_eq (Cert.KernelIdeal.Arrays.args m c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
